-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x112 : Shape := ⟨2, ![64, 112]⟩
abbrev S112 : Shape := ⟨1, ![112]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x112 : S_.BroadcastsInDim S64x112 (![] : Fin 0 → Fin S64x112.rank)
  reducesTo_S64x112_S_d0_1 : S64x112.ReducesTo [0, 1] S_
  bcast_S_S112 : S_.BroadcastsInDim S112 (![] : Fin 0 → Fin S112.rank)
  reducesTo_S112_S_d0 : S112.ReducesTo [0] S_

variable [Facts]

def fn_part2 {F : FTy → Type} [FloatOps F] (main_arg8 : FVec F S64x112 .f32) (main_arg9 : FVec F S112 .f32) (main_v33 : IVec S_ 1) : IVec S_ 1 :=
  let main_v34 : FVec F S64x112 .f32 := Host.absf main_arg8
  let main_cst_12 : FVec F S_ .f32 := constant S_ .f32 0x7F800000#32
  let main_v35 : FVec F S64x112 .f32 := broadcastInDim S64x112 ![] bcast_S_S64x112 main_cst_12
  let main_v36 : IVec S64x112 1 := cmpf .olt main_v34 main_v35
  let main_c_13 : IVec S_ 1 := constantI S_ 1 1#1
  let main_v37 : IVec S_ 1 := (fun x v => Host.reduce IntOp.andi x v reducesTo_S64x112_S_d0_1 h_S_) main_v36 main_c_13
  let main_v38 : IVec S_ 1 := andi main_v33 main_v37
  let main_v39 : FVec F S112 .f32 := Host.absf main_arg9
  let main_cst_14 : FVec F S_ .f32 := constant S_ .f32 0x7F800000#32
  let main_v40 : FVec F S112 .f32 := broadcastInDim S112 ![] bcast_S_S112 main_cst_14
  let main_v41 : IVec S112 1 := cmpf .olt main_v39 main_v40
  let main_c_15 : IVec S_ 1 := constantI S_ 1 1#1
  let main_v42 : IVec S_ 1 := (fun x v => Host.reduce IntOp.andi x v reducesTo_S112_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x112 .f32) (main_arg9 : FVec F S112 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S128x64 .f32) (main_arg5 : FVec F S64x64 .f32) (main_arg6 : FVec F S64 .f32) (main_arg7 : FVec F S64x64 .f32) (main_arg8 : FVec F S64x112 .f32) (main_arg9 : FVec F S112 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x112 : Shape := ⟨2, ![64, 112]⟩
abbrev S112 : Shape := ⟨1, ![112]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S1x112 : Shape := ⟨2, ![1, 112]⟩
abbrev S100000x112 : Shape := ⟨2, ![100000, 112]⟩
abbrev S5000x112 : Shape := ⟨2, ![5000, 112]⟩

abbrev nBuf : Space → Nat
  | .hbm => 60
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x112, .f32⟩
  | .hbm, ⟨9, _⟩ => ⟨S112, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x64, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .bf16⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S1x64, .f32⟩
  | .hbm, ⟨58, _⟩ => ⟨S1x112, .f32⟩
  | .hbm, ⟨59, _⟩ => ⟨S100000x112, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | .local _ .vmem, ⟨11, _⟩ => ⟨S128x64, .f32⟩
  | .local _ .vmem, ⟨12, _⟩ => ⟨S1x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S5000x64, .bf16⟩
  | .local _ .vmem, ⟨20, _⟩ => ⟨S5000x64, .bf16⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S64x112, .f32⟩
  | .local _ .vmem, ⟨25, _⟩ => ⟨S1x112, .f32⟩
  | .local _ .vmem, ⟨26, _⟩ => ⟨S5000x112, .f32⟩
  | .local _ .vmem, ⟨27, _⟩ => ⟨S5000x112, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x112 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x112 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x112 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  shapeCasts_S112_S1x112 : S112.ShapeCasts S1x112
  inb_S64x64_S64x64_0_0 : ∀ a, (![0, 0] : Fin 2 → Nat) a + S64x64.size a ≤ S64x64.size a
  h_S64x64 : 0 < S64x64.numel
  inb_S64x112_S64x112_0_0 : ∀ a, (![0, 0] : Fin 2 → Nat) a + S64x112.size a ≤ S64x112.size a
  h_S64x112 : 0 < S64x112.numel
  inb_S1x112_S1x112_0_0 : ∀ a, (![0, 0] : Fin 2 → Nat) a + S1x112.size a ≤ S1x112.size a
  h_S1x112 : 0 < S1x112.numel
  shapeCasts_S1x112_S1x112 : S1x112.ShapeCasts S1x112
  broadcasts_S1x112_S5000x112 : S1x112.Broadcasts S5000x112
  inb_S5000x112_S5000x112_0_0 : ∀ a, (![0, 0] : Fin 2 → Nat) a + S5000x112.size a ≤ S5000x112.size a
  h_S5000x112 : 0 < S5000x112.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x112_S5000x112_1_0_0_1_n_n_wf : DotDims.WF S5000x64 S64x112 S5000x112 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .bf16 = 32 ∨ (Rect.block (s := S100000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x112.size a ≤ S64x112.size a
  hwx2_6 : ∀ i : grid2.Coords, EltTy.bits .f32 = 32 ∨ (Rect.block (s := S64x112) S64x112.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x112.size a ≤ S1x112.size a
  hwx2_7 : ∀ i : grid2.Coords, EltTy.bits .f32 = 32 ∨ (Rect.block (s := S1x112) S1x112.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x112.size a ≤ S100000x112.size a
  hwx2_8 : ∀ i : grid2.Coords, EltTy.bits .f32 = 32 ∨ (Rect.block (s := S100000x112) S5000x112.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x112_S5000x112_1_0_0_1_n_n : DotDims S5000x64 S64x112 S5000x112 where
  lhsContracting := [1]
  rhsContracting := [0]
  lhsNonContracting := [0]
  rhsNonContracting := [1]
  lhsBatch := []
  rhsBatch := []
  wf := dot_S5000x64_S64x112_S5000x112_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg8) S64x112.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v38) S1x112.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v39) S5000x112.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x112 : Shape := ⟨2, ![64, 112]⟩
abbrev S112 : Shape := ⟨1, ![112]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x112 : Shape := ⟨2, ![100000, 112]⟩
abbrev S1x112 : Shape := ⟨2, ![1, 112]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x112, .f32⟩
  | .hbm, ⟨9, _⟩ => ⟨S112, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x112, .f32⟩
  | .hbm, ⟨83, _⟩ => ⟨S1x112, .f32⟩
  | .hbm, ⟨84, _⟩ => ⟨S100000x112, .f32⟩
  | .hbm, ⟨85, _⟩ => ⟨S100000x112, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S112_S1x112_1 : S112.BroadcastsInDim S1x112 (![1] : Fin 1 → Fin S1x112.rank)
  bcast_S1x112_S100000x112_0_1 : S1x112.BroadcastsInDim S100000x112 (![0, 1] : Fin 2 → Fin S100000x112.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x112_S100000x112_1_0_0_1_n_n_wf : DotDims.WF S100000x64 S64x112 S100000x112 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x112_S100000x112_1_0_0_1_n_n : DotDims S100000x64 S64x112 S100000x112 where
  lhsContracting := [1]
  rhsContracting := [0]
  lhsNonContracting := [0]
  rhsNonContracting := [1]
  lhsBatch := []
  rhsBatch := []
  wf := dot_S100000x64_S64x112_S100000x112_1_0_0_1_n_n_wf

class Facts : Prop extends Facts₀ where

variable [Facts]
-- ==== Proof.SageRun.lean ====
/-
  The kernel program's run with its result named.

  The program is three tiled kernels among stretches of host operations.  Its buffers' contents at each boundary are a
  fold from the launch memory: a host stretch applies its operations, a kernel region replaces its output array by
  what its grid points wrote back and leaves every other buffer alone.  Every weakly fair execution terminates in a
  state whose unscoped buffers hold the last boundary's contents; read at the result's buffer this names the result, and
  read at the arguments it says they are unchanged.
-/
import proofs.«139927_j56255481643658_2_alg».proof.Proof.Gen.KernelIdeal.Frame

set_option maxRecDepth 16384

noncomputable section

namespace Cert.KernelIdeal.SageRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result's buffer at the last
    boundary's contents and every argument as launched. -/
theorem run_result : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.SageRun

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibColumnBroadcast.lean ====
/-
  A column broadcast over the columns of a matrix, read at an entry.

  An `[a, 1]` array broadcast to `[a, b]` reads, at `(p, c)`, the operand's entry of row `p`: the unit axis is the one
  that is stretched, the row axis is kept.
-/
import Idealize.ShloMosaic.Lib.Pipeline.Value
import Idealize.ShloMosaic.Lib.ValueIdx

namespace Cert.ColumnBroadcast

open Idealize.ShloMosaic Idealize.ShloMosaic.ValueIdx

/-- An `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnBroadcast
-- ==== Proof.SagePayloads.lean ====
/-
  What each of the three kernel bodies stores, read at one entry, over the extended reals.

  Changes of float format are the identity there, and a product accumulated into the zero matrix is the plain sum over
  the shared axis.  So at row `r` of a block:
    * the projection kernel stores `Σ_k x (r, k) · W (k, c)`;
    * the first layer's kernel stores `max (((agg (r, c) · invdeg (r, 0)) + b (0, c)) + Σ_k x (r, k) · W (k, c), 0)`;
    * the second layer's kernel first forms the hidden row
      `max (((Σ_k (agg (r, k) · invdeg (r, 0)) · Wl (k, j)) + Σ_k h (r, k) · Wr (k, j)) + b (0, j), 0)`
      and stores `(Σ_j hidden (r, j) · Wo (j, o)) + bo (0, o)`.
  Every entry of a row depends on that row of the row-tiled operands only.
-/
import proofs.«139927_j56255481643658_2_alg».proof.Proof.Gen.KernelIdeal.Skeleton
import proofs.«139927_j56255481643658_2_alg».proof.Proof.LibPlainMatmul
import proofs.«139927_j56255481643658_2_alg».proof.Proof.LibColumnBroadcast
import Idealize.ShloMosaic.Lib.ValueIdx
import Idealize.ShloMosaic.Lib.ValueLayout
import Idealize.ShloMosaic.Lib.Pipeline.Value

noncomputable section

namespace Cert.KernelIdeal.SagePayloads

open Cert.KernelIdeal Cert.KernelIdeal.Gen Idealize.ShloMosaic Idealize.ShloMosaic.ValueIdx Cert.PointConv
  Cert.ColumnBroadcast

/-- The zero the bodies clamp against and accumulate into. -/
abbrev zeroF : EReal := Ideal.ofBits .f32 0x00000000#32

/-- The projection kernel's stored block at `(r, c)`: row `r` of the feature block times column `c` of the weights. -/
theorem project_apply (x : FVec Ideal S5000x128 .f32) (w : FVec Ideal S128x64 .f32) (r : Fin 5000) (c : Fin 64) :
    k0_pay1 (F := Ideal) x w (ix2 r c) = ∑ k : Fin 128, x (ix2 r k) * w (ix2 k c) :=
  (plainMatmul_zero_apply (R := 5000) (n := 128) (k := 64) dot_S5000x128_S128x64_S5000x64_1_0_0_1_n_n.wf none
    (truncf .bf16 x bitsLt_bf16_f32) (truncf .bf16 w bitsLt_bf16_f32) r c).trans rfl

/-- The hidden row of the first layer, from one row of its operands. -/
def sage1Row (a iv : EReal) (b : EReal) (xw : EReal) : EReal := max ((a * iv + b) + xw) zeroF

/-- The first layer's stored block at `(r, c)`. -/
theorem sage1_apply (a : FVec Ideal S5000x64 .f32) (iv : FVec Ideal S5000x1 .f32) (x : FVec Ideal S5000x128 .f32)
    (w : FVec Ideal S128x64 .f32) (b : FVec Ideal S1x64 .f32) (r : Fin 5000) (c : Fin 64) :
    k1_pay1 (F := Ideal) a iv x w b (ix2 r c)
      = sage1Row (a (ix2 r c)) (iv (ix2 r (0 : Fin 1))) (b (ix2 (0 : Fin 1) c)) (∑ k : Fin 128, x (ix2 r k) * w (ix2 k c)) := by
  have h0 : shapeCast S5000x64 a shapeCasts_S5000x64_S5000x64 (ix2 r c) = a (ix2 r c) := by rw [shapeCast_self]
  have h1 : broadcastTo S5000x64 (shapeCast S5000x1 iv shapeCasts_S5000x1_S5000x1) broadcasts_S5000x1_S5000x64 (ix2 r c)
      = iv (ix2 r (0 : Fin 1)) := by
    rw [shapeCast_self]; exact broadcastTo_a1_ab_apply (a := 5000) (b := 64) iv _ r c
  have h2 : broadcastTo S5000x64 (shapeCast S1x64 b shapeCasts_S1x64_S1x64) broadcasts_S1x64_S5000x64 (ix2 r c)
      = b (ix2 (0 : Fin 1) c) := by
    rw [shapeCast_self]; exact broadcastTo_1b_ab_apply (a := 5000) (b := 64) b _ r c
  have h3 := project_apply x w r c
  unfold k0_pay1 at h3
  show max ((shapeCast S5000x64 a shapeCasts_S5000x64_S5000x64 (ix2 r c)
      * broadcastTo S5000x64 (shapeCast S5000x1 iv shapeCasts_S5000x1_S5000x1) broadcasts_S5000x1_S5000x64 (ix2 r c)
      + broadcastTo S5000x64 (shapeCast S1x64 b shapeCasts_S1x64_S1x64) broadcasts_S1x64_S5000x64 (ix2 r c))
      + matmul dot_S5000x128_S128x64_S5000x64_1_0_0_1_n_n none (truncf .bf16 x bitsLt_bf16_f32) (truncf .bf16 w bitsLt_bf16_f32)
          (constant S5000x64 .f32 0x00000000#32) (ix2 r c)) zeroF = _
  rw [h0, h1, h2]
  exact congrArg (fun t => max ((a (ix2 r c) * iv (ix2 r (0 : Fin 1)) + b (ix2 (0 : Fin 1) c)) + t) zeroF) h3

/-- The hidden row of the second layer at column `j`, from one row of its operands. -/
def hidden2 (a : FVec Ideal S5000x64 .f32) (iv : FVec Ideal S5000x1 .f32) (h : FVec Ideal S5000x64 .bf16)
    (wl wr : FVec Ideal S64x64 .f32) (b : FVec Ideal S1x64 .f32) (r : Fin 5000) (j : Fin 64) : EReal :=
  max (((∑ k : Fin 64, (a (ix2 r k) * iv (ix2 r (0 : Fin 1))) * wl (ix2 k j)) + ∑ k : Fin 64, h (ix2 r k) * wr (ix2 k j))
    + b (ix2 (0 : Fin 1) j)) zeroF

/-- The second layer's hidden block as the body computes it, before the output product. -/
def hiddenVec (a : FVec Ideal S5000x64 .f32) (iv : FVec Ideal S5000x1 .f32) (h : FVec Ideal S5000x64 .bf16)
    (wl wr : FVec Ideal S64x64 .f32) (b : FVec Ideal S1x64 .f32) : FVec Ideal S5000x64 .f32 :=
  maximumf (addf (addf
      (matmul dot_S5000x64_S64x64_S5000x64_1_0_0_1_n_n none
        (truncf .bf16 (mulf (shapeCast S5000x64 a shapeCasts_S5000x64_S5000x64)
          (broadcastTo S5000x64 (shapeCast S5000x1 iv shapeCasts_S5000x1_S5000x1) broadcasts_S5000x1_S5000x64)) bitsLt_bf16_f32)
        (truncf .bf16 wl bitsLt_bf16_f32) (constant S5000x64 .f32 0x00000000#32))
      (matmul dot_S5000x64_S64x64_S5000x64_1_0_0_1_n_n none (shapeCast S5000x64 h shapeCasts_S5000x64_S5000x64)
        (truncf .bf16 wr bitsLt_bf16_f32) (constant S5000x64 .f32 0x00000000#32)))
      (broadcastTo S5000x64 (shapeCast S1x64 b shapeCasts_S1x64_S1x64) broadcasts_S1x64_S5000x64))
    (broadcast S5000x64 (Scalar.ofBits .f32 0x00000000#32))

theorem hiddenVec_apply (a : FVec Ideal S5000x64 .f32) (iv : FVec Ideal S5000x1 .f32) (h : FVec Ideal S5000x64 .bf16)
    (wl wr : FVec Ideal S64x64 .f32) (b : FVec Ideal S1x64 .f32) (r : Fin 5000) (j : Fin 64) :
    hiddenVec a iv h wl wr b (ix2 r j) = hidden2 a iv h wl wr b r j := by
  have hm1 := plainMatmul_zero_apply (R := 5000) (n := 64) (k := 64) dot_S5000x64_S64x64_S5000x64_1_0_0_1_n_n.wf none
    (truncf .bf16 (mulf (shapeCast S5000x64 a shapeCasts_S5000x64_S5000x64)
      (broadcastTo S5000x64 (shapeCast S5000x1 iv shapeCasts_S5000x1_S5000x1) broadcasts_S5000x1_S5000x64)) bitsLt_bf16_f32)
    (truncf .bf16 wl bitsLt_bf16_f32) r j
  have hm2 := plainMatmul_zero_apply (R := 5000) (n := 64) (k := 64) dot_S5000x64_S64x64_S5000x64_1_0_0_1_n_n.wf none
    (shapeCast S5000x64 h shapeCasts_S5000x64_S5000x64) (truncf .bf16 wr bitsLt_bf16_f32) r j
  have e1 : ∀ k : Fin 64, (shapeCast S5000x64 a shapeCasts_S5000x64_S5000x64 (ix2 r k)
      * broadcastTo S5000x64 (shapeCast S5000x1 iv shapeCasts_S5000x1_S5000x1) broadcasts_S5000x1_S5000x64 (ix2 r k))
      = a (ix2 r k) * iv (ix2 r (0 : Fin 1)) := by
    intro k
    rw [shapeCast_self, shapeCast_self]
    exact congrArg (a (ix2 r k) * ·) (broadcastTo_a1_ab_apply (a := 5000) (b := 64) iv _ r k)
  have e2 : broadcastTo S5000x64 (shapeCast S1x64 b shapeCasts_S1x64_S1x64) broadcasts_S1x64_S5000x64 (ix2 r j)
      = b (ix2 (0 : Fin 1) j) := by
    rw [shapeCast_self]; exact broadcastTo_1b_ab_apply (a := 5000) (b := 64) b _ r j
  have e3 : shapeCast S5000x64 h shapeCasts_S5000x64_S5000x64 = h := shapeCast_self _ _
  show max ((_ + _) + broadcastTo S5000x64 (shapeCast S1x64 b shapeCasts_S1x64_S1x64) broadcasts_S1x64_S5000x64 (ix2 r j)) zeroF = _
  rw [e2]
  unfold hidden2
  refine congrArg (fun t => max (t + b (ix2 (0 : Fin 1) j)) zeroF) ?_
  refine congrArg₂ (· + ·) (hm1.trans (Finset.sum_congr rfl fun k _ => congrArg (· * wl (ix2 k j)) (e1 k))) ?_
  exact hm2.trans (Finset.sum_congr rfl fun k _ => congrArg (· * wr (ix2 k j)) (congrFun e3 (ix2 r k)))

/-- The second layer's stored block at `(r, o)`: the hidden row times column `o` of the output weights, plus the bias. -/
theorem sage2_apply (a : FVec Ideal S5000x64 .f32) (iv : FVec Ideal S5000x1 .f32) (h : FVec Ideal S5000x64 .bf16)
    (wl wr : FVec Ideal S64x64 .f32) (b : FVec Ideal S1x64 .f32) (wo : FVec Ideal S64x112 .f32) (bo : FVec Ideal S1x112 .f32)
    (r : Fin 5000) (o : Fin 112) :
    k2_pay1 (F := Ideal) a iv h wl wr b wo bo (ix2 r o)
      = (∑ j : Fin 64, hidden2 a iv h wl wr b r j * wo (ix2 j o)) + bo (ix2 (0 : Fin 1) o) := by
  have hm := plainMatmul_zero_apply (R := 5000) (n := 64) (k := 112) dot_S5000x64_S64x112_S5000x112_1_0_0_1_n_n.wf none
    (truncf .bf16 (hiddenVec a iv h wl wr b) bitsLt_bf16_f32) (truncf .bf16 wo bitsLt_bf16_f32) r o
  have e2 : broadcastTo S5000x112 (shapeCast S1x112 bo shapeCasts_S1x112_S1x112) broadcasts_S1x112_S5000x112 (ix2 r o)
      = bo (ix2 (0 : Fin 1) o) := by
    rw [shapeCast_self]; exact broadcastTo_1b_ab_apply (a := 5000) (b := 112) bo _ r o
  show matmul dot_S5000x64_S64x112_S5000x112_1_0_0_1_n_n none (truncf .bf16 (hiddenVec a iv h wl wr b) bitsLt_bf16_f32)
      (truncf .bf16 wo bitsLt_bf16_f32) (constant S5000x112 .f32 0x00000000#32) (ix2 r o)
    + broadcastTo S5000x112 (shapeCast S1x112 bo shapeCasts_S1x112_S1x112) broadcasts_S1x112_S5000x112 (ix2 r o) = _
  rw [e2]
  refine congrArg (· + bo (ix2 (0 : Fin 1) o)) ?_
  exact hm.trans (Finset.sum_congr rfl fun j _ => congrArg (· * wo (ix2 j o)) (hiddenVec_apply a iv h wl wr b r j))

end Cert.KernelIdeal.SagePayloads

end
-- ==== Proof.SageRegion0.lean ====
/-
  The projection kernel's output array.

  The grid has twenty points; point `t` fetches rows `5000 t … 5000 t + 4999` of the features and the whole weight
  matrix, and writes back rows `5000 t … 5000 t + 4999` of the result.  Every entry of a written block is the product
  of the matching feature row with a weight column, so each write-back is a block of ONE whole-array function — the
  matrix product of the two arrays as the region finds them — and the twenty blocks tile the array.
-/
import proofs.«139927_j56255481643658_2_alg».proof.Proof.Gen.KernelIdeal.Frame
import proofs.«139927_j56255481643658_2_alg».proof.Proof.SagePayloads

set_option maxRecDepth 16384

noncomputable section

namespace Cert.KernelIdeal.SageRegions

open Cert.KernelIdeal Cert.KernelIdeal.Gen Cert.KernelIdeal.SagePayloads
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row `i 0` of `X` times column `i 1` of `W`. -/
def proj (X : S100000x128.Idx → EReal) (W : S128x64.Idx → EReal) : S100000x64.Idx → EReal :=
  fun i => ∑ k : Fin 128, X (ix2 (⟨(i 0).val, (i 0).isLt⟩ : Fin 100000) k) * W (ix2 k (⟨(i 1).val, (i 1).isLt⟩ : Fin 64))

variable (V : (c : Dev nD) → (b : Ref sig .tc) → Buf (Elt Ideal) ((c : Thread nD τ).loc b))

/-- The printed index maps over the grid: the feature window moves with the output window along the rows, the
    weight window stays, and no window moves along the columns. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the product of the two arrays. -/
theorem flushed0 (c : Dev nD) (t : Fin cfg0.N) :
    (dat0 V c).flushed 2 t = ((cfg0.win 2).blk t).view.read (Elt Ideal) (proj (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts0 t
  funext j
  have hj0 : (j 0).val < 5000 := (j 0).isLt
  have hj1 : (j 1).val < 64 := (j 1).isLt
  have hj : j = ix2 (⟨(j 0).val, hj0⟩ : Fin 5000) (⟨(j 1).val, hj1⟩ : Fin 64) := by
    funext a; match a with | ⟨0, _⟩ => rfl | ⟨1, _⟩ => rfl
  have hemb : ((cfg0.win 2).blk t).view.emb j
      = ix2 (⟨win0_2.index t (0 : Fin 2) * 5000 + (j 0).val, by omega⟩ : Fin 100000) (⟨(j 1).val, hj1⟩ : Fin 64) := by
    funext a; apply Fin.ext
    match a with
    | ⟨0, _⟩ => show win0_2.index t (0 : Fin 2) * 5000 + 1 * (j 0).val = win0_2.index t (0 : Fin 2) * 5000 + (j 0).val; omega
    | ⟨1, _⟩ => show win0_2.index t (1 : Fin 2) * 64 + 1 * (j 1).val = (j 1).val; omega
  show k0_pay1 (iblk0 V c 0 t) (iblk0 V c 1 t) j = proj (V c main_arg0) (V c main_arg2) (((cfg0.win 2).blk t).view.emb j)
  rw [hemb]
  refine ((congrArg (k0_pay1 (F := Ideal) (iblk0 V c 0 t) (iblk0 V c 1 t)) hj).trans
    (project_apply (iblk0 V c 0 t) (iblk0 V c 1 t) ⟨(j 0).val, hj0⟩ ⟨(j 1).val, hj1⟩)).trans ?_
  unfold proj
  refine Finset.sum_congr rfl fun k _ => congrArg₂ (· * ·) ?_ ?_
  · show V c main_arg0 (((cfg0.win 0).blk t).view.emb (ix2 (⟨(j 0).val, hj0⟩ : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + (j 0).val; omega
    | ⟨1, _⟩ => show win0_0.index t (1 : Fin 2) * 128 + 1 * k.val = k.val; omega
  · show V c main_arg2 (((cfg0.win 1).blk t).view.emb (ix2 k (⟨(j 1).val, hj1⟩ : Fin 64))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = (j 1).val; omega

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v13).slice (win0_2.rect t)).set ↔ _
  rw [View.set_slice_whole, Rect.mem_set_unit]
  exact Iff.rfl

/-- The twenty row blocks tile the array: row `r` is in the block of point `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The projection kernel's output array after its region: the product of the feature array and the weight array as
    the region finds them. -/
theorem region0_array (c : Dev nD) : (dat0 V c).arrAt 2 cfg0.N = proj (V c main_arg0) (V c main_arg2) :=
  (dat0 V c).arrAt_eq_of_cover 2 _ (fun t _ => flushed0 V c t) cover0

end Cert.KernelIdeal.SageRegions

end
-- ==== Proof.SageRegion1.lean ====
/-
  The first layer's output array.

  Point `t` of the grid fetches rows `5000 t … 5000 t + 4999` of the aggregated messages, of the inverse degrees and
  of the features, the whole root weight matrix and the bias row, and writes back the same rows of the hidden features.
  Entry `(r, c)` of a written block depends on row `r` of the row-tiled operands only, so each write-back is a block
  of ONE whole-array function of the five arrays as the region finds them, and the twenty blocks tile the array.
-/
import proofs.«139927_j56255481643658_2_alg».proof.Proof.Gen.KernelIdeal.Frame
import proofs.«139927_j56255481643658_2_alg».proof.Proof.SagePayloads
import proofs.«139927_j56255481643658_2_alg».proof.Proof.SageRegion0

set_option maxRecDepth 16384

noncomputable section

namespace Cert.KernelIdeal.SageRegions

open Cert.KernelIdeal Cert.KernelIdeal.Gen Cert.KernelIdeal.SagePayloads
open Idealize.ShloMosaic Idealize.ShloMosaic.TcCoe Idealize.ShloMosaic.ValueIdx Idealize.SL.Sem
open Idealize.ShloMosaic.Pipeline (Dat)

/-- The hidden features of the first layer as one function of the arrays: at `(n, c)`,
    `max (((A (n, c) · IV (n, 0)) + B (0, c)) + Σ_k X (n, k) · W (k, c), 0)`. -/
def sage1 (A : S100000x64.Idx → EReal) (IV : S100000x1.Idx → EReal) (X : S100000x128.Idx → EReal)
    (W : S128x64.Idx → EReal) (B : S1x64.Idx → EReal) : S100000x64.Idx → EReal :=
  fun i => sage1Row (A (ix2 (⟨(i 0).val, (i 0).isLt⟩ : Fin 100000) (⟨(i 1).val, (i 1).isLt⟩ : Fin 64)))
    (IV (ix2 (⟨(i 0).val, (i 0).isLt⟩ : Fin 100000) (0 : Fin 1))) (B (ix2 (0 : Fin 1) (⟨(i 1).val, (i 1).isLt⟩ : Fin 64)))
    (∑ k : Fin 128, X (ix2 (⟨(i 0).val, (i 0).isLt⟩ : Fin 100000) k) * W (ix2 k (⟨(i 1).val, (i 1).isLt⟩ : Fin 64)))

variable (V : (c : Dev nD) → (b : Ref sig .tc) → Buf (Elt Ideal) ((c : Thread nD τ).loc b))

/-- The printed index maps over the grid: the row-tiled windows move together along the rows, the whole-array windows
    stay, and no window moves along the columns. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = win1_5.index t (0 : Fin 2)
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (1 : Fin 2) = 0
    ∧ win1_5.index t (0 : Fin 2) ≤ 19 :=
  (by decide +kernel : ∀ t : Fin grid1.N, _)

/-- Every row block is some point's. -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- What point `t` writes back is block `t` of `sage1` of the five arrays. -/
theorem flushed1 (c : Dev nD) (t : Fin cfg1.N) :
    (dat1 V c).flushed 5 t = ((cfg1.win 5).blk t).view.read (Elt Ideal)
      (sage1 (V c main_v23) (V c main_v12) (V c main_arg0) (V c main_arg4) (V c main_v24)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S5000x128) hz, View.ld_unit_zero (S := S128x64) hz, View.ld_unit_zero (S := S1x64) hz]
  obtain ⟨e0, e1, e2, e3, e4, e5, e6, e7, e8, e9, e10, e11⟩ := idx_facts1 t
  funext j
  have hj0 : (j 0).val < 5000 := (j 0).isLt
  have hj1 : (j 1).val < 64 := (j 1).isLt
  have hj : j = ix2 (⟨(j 0).val, hj0⟩ : Fin 5000) (⟨(j 1).val, hj1⟩ : Fin 64) := by
    funext a; match a with | ⟨0, _⟩ => rfl | ⟨1, _⟩ => rfl
  have hemb : ((cfg1.win 5).blk t).view.emb j
      = ix2 (⟨win1_5.index t (0 : Fin 2) * 5000 + (j 0).val, by omega⟩ : Fin 100000) (⟨(j 1).val, hj1⟩ : Fin 64) := by
    funext a; apply Fin.ext
    match a with
    | ⟨0, _⟩ => show win1_5.index t (0 : Fin 2) * 5000 + 1 * (j 0).val = win1_5.index t (0 : Fin 2) * 5000 + (j 0).val; omega
    | ⟨1, _⟩ => show win1_5.index t (1 : Fin 2) * 64 + 1 * (j 1).val = (j 1).val; omega
  show k1_pay1 (iblk1 V c 0 t) (iblk1 V c 1 t) (iblk1 V c 2 t) (iblk1 V c 3 t) (iblk1 V c 4 t) j = sage1 (V c main_v23) (V c main_v12) (V c main_arg0) (V c main_arg4) (V c main_v24) (((cfg1.win 5).blk t).view.emb j)
  rw [hemb]
  refine ((congrArg (k1_pay1 (F := Ideal) (iblk1 V c 0 t) (iblk1 V c 1 t) (iblk1 V c 2 t) (iblk1 V c 3 t) (iblk1 V c 4 t)) hj).trans
    (sage1_apply (iblk1 V c 0 t) (iblk1 V c 1 t) (iblk1 V c 2 t) (iblk1 V c 3 t) (iblk1 V c 4 t) ⟨(j 0).val, hj0⟩ ⟨(j 1).val, hj1⟩)).trans ?_
  unfold sage1
  refine congr (congr (congr (congrArg sage1Row ?_) ?_) ?_) (Finset.sum_congr rfl fun k _ => congrArg₂ (· * ·) ?_ ?_)
  · show V c main_v23 (((cfg1.win 0).blk t).view.emb (ix2 (⟨(j 0).val, hj0⟩ : Fin 5000) (⟨(j 1).val, hj1⟩ : Fin 64))) = _
    refine congrArg (V c main_v23) (funext fun a => Fin.ext ?_)
    match a with
    | ⟨0, _⟩ => show win1_0.index t (0 : Fin 2) * 5000 + 1 * (j 0).val = win1_5.index t (0 : Fin 2) * 5000 + (j 0).val; omega
    | ⟨1, _⟩ => show win1_0.index t (1 : Fin 2) * 64 + 1 * (j 1).val = (j 1).val; omega
  · show V c main_v12 (((cfg1.win 1).blk t).view.emb (ix2 (⟨(j 0).val, hj0⟩ : Fin 5000) (0 : Fin 1))) = _
    refine congrArg (V c main_v12) (funext fun a => Fin.ext ?_)
    match a with
    | ⟨0, _⟩ => show win1_1.index t (0 : Fin 2) * 5000 + 1 * (j 0).val = win1_5.index t (0 : Fin 2) * 5000 + (j 0).val; omega
    | ⟨1, _⟩ => show win1_1.index t (1 : Fin 2) * 1 + 1 * 0 = 0; omega
  · show V c main_v24 (((cfg1.win 4).blk t).view.emb (ix2 (0 : Fin 1) (⟨(j 1).val, hj1⟩ : Fin 64))) = _
    refine congrArg (V c main_v24) (funext fun a => Fin.ext ?_)
    match a with
    | ⟨0, _⟩ => show win1_4.index t (0 : Fin 2) * 1 + 1 * 0 = 0; omega
    | ⟨1, _⟩ => show win1_4.index t (1 : Fin 2) * 64 + 1 * (j 1).val = (j 1).val; omega
  · show V c main_arg0 (((cfg1.win 2).blk t).view.emb (ix2 (⟨(j 0).val, hj0⟩ : Fin 5000) k)) = _
    refine congrArg (V c main_arg0) (funext fun a => Fin.ext ?_)
    match a with
    | ⟨0, _⟩ => show win1_2.index t (0 : Fin 2) * 5000 + 1 * (j 0).val = win1_5.index t (0 : Fin 2) * 5000 + (j 0).val; omega
    | ⟨1, _⟩ => show win1_2.index t (1 : Fin 2) * 128 + 1 * k.val = k.val; omega
  · show V c main_arg4 (((cfg1.win 3).blk t).view.emb (ix2 k (⟨(j 1).val, hj1⟩ : Fin 64))) = _
    refine congrArg (V c main_arg4) (funext fun a => Fin.ext ?_)
    match a with
    | ⟨0, _⟩ => show win1_3.index t (0 : Fin 2) * 128 + 1 * k.val = k.val; omega
    | ⟨1, _⟩ => show win1_3.index t (1 : Fin 2) * 64 + 1 * (j 1).val = (j 1).val; omega

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v25).slice (win1_5.rect t)).set ↔ _
  rw [View.set_slice_whole, Rect.mem_set_unit]
  exact Iff.rfl

/-- The twenty row blocks tile the array: row `r` is in the block of point `r / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The first layer's output array after its region: `sage1` of the five arrays as the region finds them. -/
theorem region1_array (c : Dev nD) : (dat1 V c).arrAt 5 cfg1.N
    = sage1 (V c main_v23) (V c main_v12) (V c main_arg0) (V c main_arg4) (V c main_v24) :=
  (dat1 V c).arrAt_eq_of_cover 5 _ (fun t _ => flushed1 V c t) cover1

end Cert.KernelIdeal.SageRegions

end
-- ==== Proof.SageRegion2.lean ====
/-
  The second layer's output array.

  Point `t` of the grid fetches rows `5000 t … 5000 t + 4999` of the aggregated hidden features, of the inverse
  degrees and of the hidden features themselves, the three weight matrices and the two bias rows whole, and writes back
  the same rows of the result.  Entry `(r, o)` of a written block depends on row `r` of the row-tiled operands only, so
  each write-back is a block of ONE whole-array function of the eight arrays as the region finds them, and the twenty
  blocks tile the array.
-/
import proofs.«139927_j56255481643658_2_alg».proof.Proof.Gen.KernelIdeal.Frame
import proofs.«139927_j56255481643658_2_alg».proof.Proof.SagePayloads
import proofs.«139927_j56255481643658_2_alg».proof.Proof.SageRegion0

set_option maxRecDepth 16384

noncomputable section

namespace Cert.KernelIdeal.SageRegions

open Cert.KernelIdeal Cert.KernelIdeal.Gen Cert.KernelIdeal.SagePayloads
open Idealize.ShloMosaic Idealize.ShloMosaic.TcCoe Idealize.ShloMosaic.ValueIdx Idealize.SL.Sem
open Idealize.ShloMosaic.Pipeline (Dat)

/-- The second hidden layer at node `n`, column `j`, as a function of the arrays:
    `max (((Σ_k (A (n, k) · IV (n, 0)) · WL (k, j)) + Σ_k H (n, k) · WR (k, j)) + B (0, j), 0)`. -/
def hid2 (A : S100000x64.Idx → EReal) (IV : S100000x1.Idx → EReal) (H : S100000x64.Idx → EReal)
    (WL WR : S64x64.Idx → EReal) (B : S1x64.Idx → EReal) (n : Fin 100000) (j : Fin 64) : EReal :=
  max (((∑ k : Fin 64, (A (ix2 n k) * IV (ix2 n (0 : Fin 1))) * WL (ix2 k j)) + ∑ k : Fin 64, H (ix2 n k) * WR (ix2 k j))
    + B (ix2 (0 : Fin 1) j)) zeroF

/-- The result as one function of the arrays: at `(n, o)`, `(Σ_j hid2 (n, j) · WO (j, o)) + BO (0, o)`. -/
def sage2 (A : S100000x64.Idx → EReal) (IV : S100000x1.Idx → EReal) (H : S100000x64.Idx → EReal)
    (WL : S64x64.Idx → EReal) (B : S1x64.Idx → EReal) (WR : S64x64.Idx → EReal) (WO : S64x112.Idx → EReal)
    (BO : S1x112.Idx → EReal) : S100000x112.Idx → EReal :=
  fun i => (∑ j : Fin 64, hid2 A IV H WL WR B (⟨(i 0).val, (i 0).isLt⟩ : Fin 100000) j * WO (ix2 j (⟨(i 1).val, (i 1).isLt⟩ : Fin 112)))
    + BO (ix2 (0 : Fin 1) (⟨(i 1).val, (i 1).isLt⟩ : Fin 112))

variable (V : (c : Dev nD) → (b : Ref sig .tc) → Buf (Elt Ideal) ((c : Thread nD τ).loc b))

/-- The printed index maps over the grid: the row-tiled windows move together along the rows, the whole-array windows
    stay, and no window moves along the columns. -/
theorem idx_facts2 : ∀ t : Fin cfg2.N, win2_0.index t (0 : Fin 2) = win2_8.index t (0 : Fin 2)
    ∧ win2_0.index t (1 : Fin 2) = 0
    ∧ win2_1.index t (0 : Fin 2) = win2_8.index t (0 : Fin 2)
    ∧ win2_1.index t (1 : Fin 2) = 0
    ∧ win2_2.index t (0 : Fin 2) = win2_8.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (1 : Fin 2) = 0
    ∧ win2_8.index t (0 : Fin 2) ≤ 19 :=
  (by decide +kernel : ∀ t : Fin grid2.N, _)

/-- Every row block is some point's. -/
theorem idx_onto2 : ∀ q0 : Fin 20, ∃ t : Fin cfg2.N, win2_8.index t = ![q0.val, 0] :=
  (by decide +kernel : ∀ q0 : Fin 20, ∃ t : Fin grid2.N, win2_8.index t = ![q0.val, 0])

/-- What point `t` writes back is block `t` of `sage2` of the eight arrays. -/
theorem flushed2 (c : Dev nD) (t : Fin cfg2.N) :
    (dat2 V c).flushed 8 t = ((cfg2.win 8).blk t).view.read (Elt Ideal)
      (sage2 (V c main_v36) (V c main_v12) (V c main_v25) (V c main_arg5) (V c main_v37) (V c main_arg7) (V c main_arg8)
        (V c main_v38)) := by
  show (cfg2.win 8).cut (grid2.coords t) ((dat2 V c).after 8 t) = _
  rw [after2_8]
  unfold out2_8
  rw [View.canon_unit_zero hz]
  simp only [View.ld_unit_zero (S := S5000x64) hz, View.ld_unit_zero (S := S5000x1) hz, View.ld_unit_zero (S := S64x64) hz, View.ld_unit_zero (S := S1x64) hz, View.ld_unit_zero (S := S64x112) hz, View.ld_unit_zero (S := S1x112) hz]
  obtain ⟨e0, e1, e2, e3, e4, e5, e6, e7, e8, e9, e10, e11, e12, e13, e14, e15, e16, e17⟩ := idx_facts2 t
  funext j
  have hj0 : (j 0).val < 5000 := (j 0).isLt
  have hj1 : (j 1).val < 112 := (j 1).isLt
  have hj : j = ix2 (⟨(j 0).val, hj0⟩ : Fin 5000) (⟨(j 1).val, hj1⟩ : Fin 112) := by
    funext a; match a with | ⟨0, _⟩ => rfl | ⟨1, _⟩ => rfl
  have hemb : ((cfg2.win 8).blk t).view.emb j
      = ix2 (⟨win2_8.index t (0 : Fin 2) * 5000 + (j 0).val, by omega⟩ : Fin 100000) (⟨(j 1).val, hj1⟩ : Fin 112) := by
    funext a; apply Fin.ext
    match a with
    | ⟨0, _⟩ => show win2_8.index t (0 : Fin 2) * 5000 + 1 * (j 0).val = win2_8.index t (0 : Fin 2) * 5000 + (j 0).val; omega
    | ⟨1, _⟩ => show win2_8.index t (1 : Fin 2) * 112 + 1 * (j 1).val = (j 1).val; omega
  show k2_pay1 (iblk2 V c 0 t) (iblk2 V c 1 t) (iblk2 V c 2 t) (iblk2 V c 3 t) (iblk2 V c 5 t) (iblk2 V c 4 t) (iblk2 V c 6 t) (iblk2 V c 7 t) j = sage2 (V c main_v36) (V c main_v12) (V c main_v25) (V c main_arg5) (V c main_v37) (V c main_arg7) (V c main_arg8) (V c main_v38) (((cfg2.win 8).blk t).view.emb j)
  rw [hemb]
  refine ((congrArg (k2_pay1 (F := Ideal) (iblk2 V c 0 t) (iblk2 V c 1 t) (iblk2 V c 2 t) (iblk2 V c 3 t) (iblk2 V c 5 t) (iblk2 V c 4 t) (iblk2 V c 6 t) (iblk2 V c 7 t)) hj).trans
    (sage2_apply (iblk2 V c 0 t) (iblk2 V c 1 t) (iblk2 V c 2 t) (iblk2 V c 3 t) (iblk2 V c 5 t) (iblk2 V c 4 t) (iblk2 V c 6 t) (iblk2 V c 7 t) ⟨(j 0).val, hj0⟩ ⟨(j 1).val, hj1⟩)).trans ?_
  unfold sage2
  refine congrArg₂ (· + ·) (Finset.sum_congr rfl fun jj _ => congrArg₂ (· * ·) ?_ ?_) ?_
  · unfold hidden2 hid2
    refine congrArg (fun s => max s zeroF) (congrArg₂ (· + ·) (congrArg₂ (· + ·)
      (Finset.sum_congr rfl fun k _ => congrArg₂ (· * ·) (congrArg₂ (· * ·) ?_ ?_) ?_)
      (Finset.sum_congr rfl fun k _ => congrArg₂ (· * ·) ?_ ?_)) ?_)
    · show V c main_v36 (((cfg2.win 0).blk t).view.emb (ix2 (⟨(j 0).val, hj0⟩ : Fin 5000) k)) = _
      refine congrArg (V c main_v36) (funext fun a => Fin.ext ?_)
      match a with
      | ⟨0, _⟩ => show win2_0.index t (0 : Fin 2) * 5000 + 1 * (j 0).val = win2_8.index t (0 : Fin 2) * 5000 + (j 0).val; omega
      | ⟨1, _⟩ => show win2_0.index t (1 : Fin 2) * 64 + 1 * k.val = k.val; omega
    · show V c main_v12 (((cfg2.win 1).blk t).view.emb (ix2 (⟨(j 0).val, hj0⟩ : Fin 5000) (0 : Fin 1))) = _
      refine congrArg (V c main_v12) (funext fun a => Fin.ext ?_)
      match a with
      | ⟨0, _⟩ => show win2_1.index t (0 : Fin 2) * 5000 + 1 * (j 0).val = win2_8.index t (0 : Fin 2) * 5000 + (j 0).val; omega
      | ⟨1, _⟩ => show win2_1.index t (1 : Fin 2) * 1 + 1 * 0 = 0; omega
    · show V c main_arg5 (((cfg2.win 3).blk t).view.emb (ix2 k jj)) = _
      refine congrArg (V c main_arg5) (funext fun a => Fin.ext ?_)
      match a with
      | ⟨0, _⟩ => show win2_3.index t (0 : Fin 2) * 64 + 1 * k.val = k.val; omega
      | ⟨1, _⟩ => show win2_3.index t (1 : Fin 2) * 64 + 1 * jj.val = jj.val; omega
    · show V c main_v25 (((cfg2.win 2).blk t).view.emb (ix2 (⟨(j 0).val, hj0⟩ : Fin 5000) k)) = _
      refine congrArg (V c main_v25) (funext fun a => Fin.ext ?_)
      match a with
      | ⟨0, _⟩ => show win2_2.index t (0 : Fin 2) * 5000 + 1 * (j 0).val = win2_8.index t (0 : Fin 2) * 5000 + (j 0).val; omega
      | ⟨1, _⟩ => show win2_2.index t (1 : Fin 2) * 64 + 1 * k.val = k.val; omega
    · show V c main_arg7 (((cfg2.win 5).blk t).view.emb (ix2 k jj)) = _
      refine congrArg (V c main_arg7) (funext fun a => Fin.ext ?_)
      match a with
      | ⟨0, _⟩ => show win2_5.index t (0 : Fin 2) * 64 + 1 * k.val = k.val; omega
      | ⟨1, _⟩ => show win2_5.index t (1 : Fin 2) * 64 + 1 * jj.val = jj.val; omega
    · show V c main_v37 (((cfg2.win 4).blk t).view.emb (ix2 (0 : Fin 1) jj)) = _
      refine congrArg (V c main_v37) (funext fun a => Fin.ext ?_)
      match a with
      | ⟨0, _⟩ => show win2_4.index t (0 : Fin 2) * 1 + 1 * 0 = 0; omega
      | ⟨1, _⟩ => show win2_4.index t (1 : Fin 2) * 64 + 1 * jj.val = jj.val; omega
  · show V c main_arg8 (((cfg2.win 6).blk t).view.emb (ix2 jj (⟨(j 1).val, hj1⟩ : Fin 112))) = _
    refine congrArg (V c main_arg8) (funext fun a => Fin.ext ?_)
    match a with
    | ⟨0, _⟩ => show win2_6.index t (0 : Fin 2) * 64 + 1 * jj.val = jj.val; omega
    | ⟨1, _⟩ => show win2_6.index t (1 : Fin 2) * 112 + 1 * (j 1).val = (j 1).val; omega
  · show V c main_v38 (((cfg2.win 7).blk t).view.emb (ix2 (0 : Fin 1) (⟨(j 1).val, hj1⟩ : Fin 112))) = _
    refine congrArg (V c main_v38) (funext fun a => Fin.ext ?_)
    match a with
    | ⟨0, _⟩ => show win2_7.index t (0 : Fin 2) * 1 + 1 * 0 = 0; omega
    | ⟨1, _⟩ => show win2_7.index t (1 : Fin 2) * 112 + 1 * (j 1).val = (j 1).val; omega

/-- An index of the array is in point `t`'s block iff each coordinate is in the block's range on its axis. -/
theorem mem_blk2 (t : Fin cfg2.N) (i : S100000x112.Idx) :
    i ∈ ((cfg2.win 8).blk t).view.set ↔ ∀ a : Fin 2, win2_8.index t a * S5000x112.size a ≤ (i a).val
      ∧ (i a).val < win2_8.index t a * S5000x112.size a + S5000x112.size a := by
  show i ∈ ((View.whole main_v39).slice (win2_8.rect t)).set ↔ _
  rw [View.set_slice_whole, Rect.mem_set_unit]
  exact Iff.rfl

/-- The twenty row blocks tile the array: row `r` is in the block of point `r / 5000`. -/
theorem cover2 (i : S100000x112.Idx) :
    ∃ t : Fin cfg2.N, (cfg2.win 8).flush t = true ∧ i ∈ ((cfg2.win 8).blk t).view.set := by
  have hi0 : (i 0).val < 100000 := (i 0).isLt
  have hi1 : (i 1).val < 112 := (i 1).isLt
  obtain ⟨t, ht⟩ := idx_onto2 ⟨(i 0).val / 5000, by omega⟩
  have q0 : win2_8.index t (0 : Fin 2) = (i 0).val / 5000 := congrFun ht 0
  have q1 : win2_8.index t (1 : Fin 2) = 0 := congrFun ht 1
  refine ⟨t, flush2_8 t, ?_⟩
  rw [mem_blk2]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 112 ≤ (i 1).val ∧ (i 1).val < win2_8.index t (1 : Fin 2) * 112 + 112; omega

/-- The second layer's output array after its region: `sage2` of the eight arrays as the region finds them. -/
theorem region2_array (c : Dev nD) : (dat2 V c).arrAt 8 cfg2.N
    = sage2 (V c main_v36) (V c main_v12) (V c main_v25) (V c main_arg5) (V c main_v37) (V c main_arg7) (V c main_arg8)
        (V c main_v38) :=
  (dat2 V c).arrAt_eq_of_cover 8 _ (fun t _ => flushed2 V c t) cover2

end Cert.KernelIdeal.SageRegions

end
-- ==== Proof.SageFold.lean ====
/-
  The kernel program's buffers at each boundary of its run, as functions of the argument arrays.

  Before the first kernel the host splits the edge list into its source row and its destination row, counts the edges
  landing on every node (a scatter of ones), clamps the count below by one and takes the reciprocal.  The first kernel
  projects the features.  The host then gathers the projected rows at the sources and adds them up at the destinations;
  the second kernel forms the first hidden layer; the host aggregates the hidden rows the same way; the third kernel
  forms the second hidden layer and the output.  A buffer no operation of a stretch writes, and no region flushes, keeps
  its contents, so every operand a later step reads is walked back to the step that wrote it.
-/
import proofs.«139927_j56255481643658_2_alg».proof.Proof.Gen.KernelIdeal.Frame
import proofs.«139927_j56255481643658_2_alg».proof.Proof.SageRegion0
import proofs.«139927_j56255481643658_2_alg».proof.Proof.SageRegion1
import proofs.«139927_j56255481643658_2_alg».proof.Proof.SageRegion2
import Idealize.ShloMosaic.Lib.StableHlo.Run

set_option maxRecDepth 16384

noncomputable section

namespace Cert.KernelIdeal.SageFold

open Cert.KernelIdeal Cert.KernelIdeal.Gen Cert.KernelIdeal.SageRegions
open Idealize.ShloMosaic Idealize.ShloMosaic.TcCoe Idealize.ShloMosaic.Tactic Idealize.SL.Sem

/-! ## The host stretches' results as whole-array functions -/

/-- The edge list's source row. -/
def srcRow (x1 : IVec S2x1600000 32) : IVec S1600000 32 :=
  shapeCast S1600000 (extractStridedSlice S1x1600000 ![0, 0] x1 slices_S2x1600000_S1x1600000_0_0) shapeCasts_S1x1600000_S1600000

/-- The edge list's destination row. -/
def dstRow (x1 : IVec S2x1600000 32) : IVec S1600000 32 :=
  shapeCast S1600000 (extractStridedSlice S1x1600000 ![1, 0] x1 slices_S2x1600000_S1x1600000_1_0) shapeCasts_S1x1600000_S1600000

/-- The source indices as the gather takes them: a negative index counts from the end, then the row becomes a column. -/
def srcCol (x1 : IVec S2x1600000 32) : IVec S1600000x1 32 :=
  broadcastInDim S1600000x1 ![0] bcast_S1600000_S1600000x1_0
    (select (cmpi .slt (srcRow x1) (broadcastInDim S1600000 ![] bcast_S_S1600000 (constantI S_ 32 0#32)))
      (addi (srcRow x1) (broadcastInDim S1600000 ![] bcast_S_S1600000 (constantI S_ 32 100000#32))) (srcRow x1))

/-- The destination indices as the scatters take them. -/
def dstCol (x1 : IVec S2x1600000 32) : IVec S1600000x1 32 :=
  broadcastInDim S1600000x1 ![0] bcast_S1600000_S1600000x1_0 (dstRow x1)

/-- The number of edges landing on each node, clamped below by one. -/
def clampedDeg (x1 : IVec S2x1600000 32) : FVec Ideal S100000 .f32 :=
  maximumf
    (Host.scatterAdd scatter_S100000_S1600000x1_S1600000_n_0_0_1
      (broadcastInDim S100000 ![] bcast_S_S100000 (constant S_ .f32 0x00000000#32)) (dstCol x1)
      (broadcastInDim S1600000 ![] bcast_S_S1600000 (constant S_ .f32 0x3F800000#32)))
    (broadcastInDim S100000 ![] bcast_S_S100000 (constant S_ .f32 0x3F800000#32))

/-- Its reciprocal, as a column. -/
def invDeg (x1 : IVec S2x1600000 32) : FVec Ideal S100000x1 .f32 :=
  shapeCast S100000x1 (Host.divf (broadcastInDim S100000 ![] bcast_S_S100000 (constant S_ .f32 0x3F800000#32)) (clampedDeg x1))
    shapeCasts_S100000_S100000x1

/-- Neighbourhood sums: the rows of `Y` gathered at the sources, added up at the destinations. -/
def aggregate (x1 : IVec S2x1600000 32) (Y : S100000x64.Idx → EReal) : S100000x64.Idx → EReal :=
  Host.scatterAdd (F := Ideal) (φ := .f32) scatter_S100000x64_S1600000x1_S1600000x64_1_0_0_1
    (broadcastInDim S100000x64 ![] bcast_S_S100000x64 (constant S_ .f32 0x00000000#32)) (dstCol x1)
    (Host.gather gather_S100000x64_S1600000x1_S1600000x64_1_0_n_n_0_1_164 Y (srcCol x1))

/-- A bias vector as a one-row matrix. -/
def biasRow64 (b : FVec Ideal S64 .f32) : FVec Ideal S1x64 .f32 := shapeCast S1x64 b shapeCasts_S64_S1x64
def biasRow112 (b : FVec Ideal S112 .f32) : FVec Ideal S1x112 .f32 := shapeCast S1x112 b shapeCasts_S112_S1x112

/-- THE KERNEL PROGRAM'S RESULT as one function of its ten argument arrays. -/
def kernelOut (x0 : S100000x128.Idx → EReal) (x1 : IVec S2x1600000 32) (x2 : S128x64.Idx → EReal) (x3 : FVec Ideal S64 .f32)
    (x4 : S128x64.Idx → EReal) (x5 : S64x64.Idx → EReal) (x6 : FVec Ideal S64 .f32) (x7 : S64x64.Idx → EReal)
    (x8 : S64x112.Idx → EReal) (x9 : FVec Ideal S112 .f32) : S100000x112.Idx → EReal :=
  sage2 (aggregate x1 (sage1 (aggregate x1 (proj x0 x2)) (invDeg x1) x0 x4 (biasRow64 x3))) (invDeg x1)
    (sage1 (aggregate x1 (proj x0 x2)) (invDeg x1) x0 x4 (biasRow64 x3)) x5 (biasRow64 x6) x7 x8 (biasRow112 x9)

/-! ## The fold, buffer by buffer -/

variable (m : (ℓ : Loc nD τ sig) → Buf (Elt Ideal) ℓ) (ρ : Dev nD → PrngReg)

/-- A buffer none of a stretch's operations writes keeps its contents through the stretch. -/
macro "host_kept" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem W1_v1 (c : Dev nD) : W1 m ρ c (Proc.devRef .tc main_v1) = srcRow (m ((c : Thread nD τ).loc main_arg1)) :=
  by
  show StableHlo.after hostOps0 (W0 m ρ c) (Proc.devRef .tc main_v1) = _
  after_results
  rfl

theorem W1_v3 (c : Dev nD) : W1 m ρ c (Proc.devRef .tc main_v3) = dstRow (m ((c : Thread nD τ).loc main_arg1)) :=
  by
  show StableHlo.after hostOps0 (W0 m ρ c) (Proc.devRef .tc main_v3) = _
  after_results
  rfl

theorem W1_v12 (c : Dev nD) : W1 m ρ c (Proc.devRef .tc main_v12) = invDeg (m ((c : Thread nD τ).loc main_arg1)) :=
  by
  show StableHlo.after hostOps0 (W0 m ρ c) (Proc.devRef .tc main_v12) = _
  after_results
  rfl

theorem W1_arg0 (c : Dev nD) : W1 m ρ c (Proc.devRef .tc main_arg0) = m ((c : Thread nD τ).loc main_arg0) :=
  by host_kept hostOps0

theorem W1_arg2 (c : Dev nD) : W1 m ρ c (Proc.devRef .tc main_arg2) = m ((c : Thread nD τ).loc main_arg2) :=
  by host_kept hostOps0

theorem W1_arg3 (c : Dev nD) : W1 m ρ c (Proc.devRef .tc main_arg3) = m ((c : Thread nD τ).loc main_arg3) :=
  by host_kept hostOps0

theorem W1_arg4 (c : Dev nD) : W1 m ρ c (Proc.devRef .tc main_arg4) = m ((c : Thread nD τ).loc main_arg4) :=
  by host_kept hostOps0

theorem W1_arg5 (c : Dev nD) : W1 m ρ c (Proc.devRef .tc main_arg5) = m ((c : Thread nD τ).loc main_arg5) :=
  by host_kept hostOps0

theorem W1_arg6 (c : Dev nD) : W1 m ρ c (Proc.devRef .tc main_arg6) = m ((c : Thread nD τ).loc main_arg6) :=
  by host_kept hostOps0

theorem W1_arg7 (c : Dev nD) : W1 m ρ c (Proc.devRef .tc main_arg7) = m ((c : Thread nD τ).loc main_arg7) :=
  by host_kept hostOps0

theorem W1_arg8 (c : Dev nD) : W1 m ρ c (Proc.devRef .tc main_arg8) = m ((c : Thread nD τ).loc main_arg8) :=
  by host_kept hostOps0

theorem W1_arg9 (c : Dev nD) : W1 m ρ c (Proc.devRef .tc main_arg9) = m ((c : Thread nD τ).loc main_arg9) :=
  by host_kept hostOps0

theorem W2_v13 (c : Dev nD) : W2 m ρ c (Proc.devRef .tc main_v13) = proj (m ((c : Thread nD τ).loc main_arg0)) (m ((c : Thread nD τ).loc main_arg2)) := by
  refine (W2_arr m ρ c 2).trans ((region0_array (V1 m ρ) c).trans ?_)
  show proj (W1 m ρ c (Proc.devRef .tc main_arg0)) (W1 m ρ c (Proc.devRef .tc main_arg2)) = _
  rw [W1_arg0, W1_arg2]

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)

theorem W2_v1 (c : Dev nD) : W2 m ρ c (Proc.devRef .tc main_v1) = srcRow (m ((c : Thread nD τ).loc main_arg1)) :=
  (W2_of_ne m ρ c main_v1 (by decide)).trans (W1_v1 m ρ c)

theorem W2_v3 (c : Dev nD) : W2 m ρ c (Proc.devRef .tc main_v3) = dstRow (m ((c : Thread nD τ).loc main_arg1)) :=
  (W2_of_ne m ρ c main_v3 (by decide)).trans (W1_v3 m ρ c)

theorem W2_v12 (c : Dev nD) : W2 m ρ c (Proc.devRef .tc main_v12) = invDeg (m ((c : Thread nD τ).loc main_arg1)) :=
  (W2_of_ne m ρ c main_v12 (by decide)).trans (W1_v12 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_arg4 (c : Dev nD) : W2 m ρ c (Proc.devRef .tc main_arg4) = m ((c : Thread nD τ).loc main_arg4) :=
  (W2_of_ne m ρ c main_arg4 (by decide)).trans (W1_arg4 m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

theorem W2_arg8 (c : Dev nD) : W2 m ρ c (Proc.devRef .tc main_arg8) = m ((c : Thread nD τ).loc main_arg8) :=
  (W2_of_ne m ρ c main_arg8 (by decide)).trans (W1_arg8 m ρ c)

theorem W2_arg9 (c : Dev nD) : W2 m ρ c (Proc.devRef .tc main_arg9) = m ((c : Thread nD τ).loc main_arg9) :=
  (W2_of_ne m ρ c main_arg9 (by decide)).trans (W1_arg9 m ρ c)

theorem W3_v23 (c : Dev nD) : W3 m ρ c (Proc.devRef .tc main_v23) = aggregate (m ((c : Thread nD τ).loc main_arg1)) (proj (m ((c : Thread nD τ).loc main_arg0)) (m ((c : Thread nD τ).loc main_arg2))) := by
  show StableHlo.after hostOps1 (W2 m ρ c) (Proc.devRef .tc main_v23) = _
  after_results
  rw [W2_v3, W2_v13, W2_v1]
  rfl

theorem W3_v24 (c : Dev nD) : W3 m ρ c (Proc.devRef .tc main_v24) = biasRow64 (m ((c : Thread nD τ).loc main_arg3)) := by
  show StableHlo.after hostOps1 (W2 m ρ c) (Proc.devRef .tc main_v24) = _
  after_results
  rw [W2_arg3]
  rfl

theorem W3_v1 (c : Dev nD) : W3 m ρ c (Proc.devRef .tc main_v1) = srcRow (m ((c : Thread nD τ).loc main_arg1)) :=
  (by host_kept hostOps1 : W3 m ρ c (Proc.devRef .tc main_v1) = W2 m ρ c (Proc.devRef .tc main_v1)).trans (W2_v1 m ρ c)

theorem W3_v3 (c : Dev nD) : W3 m ρ c (Proc.devRef .tc main_v3) = dstRow (m ((c : Thread nD τ).loc main_arg1)) :=
  (by host_kept hostOps1 : W3 m ρ c (Proc.devRef .tc main_v3) = W2 m ρ c (Proc.devRef .tc main_v3)).trans (W2_v3 m ρ c)

theorem W3_v12 (c : Dev nD) : W3 m ρ c (Proc.devRef .tc main_v12) = invDeg (m ((c : Thread nD τ).loc main_arg1)) :=
  (by host_kept hostOps1 : W3 m ρ c (Proc.devRef .tc main_v12) = W2 m ρ c (Proc.devRef .tc main_v12)).trans (W2_v12 m ρ c)

theorem W3_arg0 (c : Dev nD) : W3 m ρ c (Proc.devRef .tc main_arg0) = m ((c : Thread nD τ).loc main_arg0) :=
  (by host_kept hostOps1 : W3 m ρ c (Proc.devRef .tc main_arg0) = W2 m ρ c (Proc.devRef .tc main_arg0)).trans (W2_arg0 m ρ c)

theorem W3_arg4 (c : Dev nD) : W3 m ρ c (Proc.devRef .tc main_arg4) = m ((c : Thread nD τ).loc main_arg4) :=
  (by host_kept hostOps1 : W3 m ρ c (Proc.devRef .tc main_arg4) = W2 m ρ c (Proc.devRef .tc main_arg4)).trans (W2_arg4 m ρ c)

theorem W3_arg5 (c : Dev nD) : W3 m ρ c (Proc.devRef .tc main_arg5) = m ((c : Thread nD τ).loc main_arg5) :=
  (by host_kept hostOps1 : W3 m ρ c (Proc.devRef .tc main_arg5) = W2 m ρ c (Proc.devRef .tc main_arg5)).trans (W2_arg5 m ρ c)

theorem W3_arg6 (c : Dev nD) : W3 m ρ c (Proc.devRef .tc main_arg6) = m ((c : Thread nD τ).loc main_arg6) :=
  (by host_kept hostOps1 : W3 m ρ c (Proc.devRef .tc main_arg6) = W2 m ρ c (Proc.devRef .tc main_arg6)).trans (W2_arg6 m ρ c)

theorem W3_arg7 (c : Dev nD) : W3 m ρ c (Proc.devRef .tc main_arg7) = m ((c : Thread nD τ).loc main_arg7) :=
  (by host_kept hostOps1 : W3 m ρ c (Proc.devRef .tc main_arg7) = W2 m ρ c (Proc.devRef .tc main_arg7)).trans (W2_arg7 m ρ c)

theorem W3_arg8 (c : Dev nD) : W3 m ρ c (Proc.devRef .tc main_arg8) = m ((c : Thread nD τ).loc main_arg8) :=
  (by host_kept hostOps1 : W3 m ρ c (Proc.devRef .tc main_arg8) = W2 m ρ c (Proc.devRef .tc main_arg8)).trans (W2_arg8 m ρ c)

theorem W3_arg9 (c : Dev nD) : W3 m ρ c (Proc.devRef .tc main_arg9) = m ((c : Thread nD τ).loc main_arg9) :=
  (by host_kept hostOps1 : W3 m ρ c (Proc.devRef .tc main_arg9) = W2 m ρ c (Proc.devRef .tc main_arg9)).trans (W2_arg9 m ρ c)

theorem W4_v25 (c : Dev nD) : W4 m ρ c (Proc.devRef .tc main_v25) = sage1 (aggregate (m ((c : Thread nD τ).loc main_arg1)) (proj (m ((c : Thread nD τ).loc main_arg0)) (m ((c : Thread nD τ).loc main_arg2)))) (invDeg (m ((c : Thread nD τ).loc main_arg1))) (m ((c : Thread nD τ).loc main_arg0)) (m ((c : Thread nD τ).loc main_arg4)) (biasRow64 (m ((c : Thread nD τ).loc main_arg3))) := by
  refine (W4_arr m ρ c 5).trans ((region1_array (V3 m ρ) c).trans ?_)
  show sage1 (W3 m ρ c (Proc.devRef .tc main_v23)) (W3 m ρ c (Proc.devRef .tc main_v12)) (W3 m ρ c (Proc.devRef .tc main_arg0)) (W3 m ρ c (Proc.devRef .tc main_arg4)) (W3 m ρ c (Proc.devRef .tc main_v24)) = _
  rw [W3_v23, W3_v12, W3_arg0, W3_arg4, W3_v24]

theorem W4_v12 (c : Dev nD) : W4 m ρ c (Proc.devRef .tc main_v12) = invDeg (m ((c : Thread nD τ).loc main_arg1)) :=
  ((W4_arr m ρ c 1).trans (((dat1 (V3 m ρ) c).arrAt_in 1 rfl _).trans (A_eq1 (V3 m ρ) c 1))).trans (W3_v12 m ρ c)

theorem W4_v1 (c : Dev nD) : W4 m ρ c (Proc.devRef .tc main_v1) = srcRow (m ((c : Thread nD τ).loc main_arg1)) :=
  (W4_of_ne m ρ c main_v1 (by decide)).trans (W3_v1 m ρ c)

theorem W4_v3 (c : Dev nD) : W4 m ρ c (Proc.devRef .tc main_v3) = dstRow (m ((c : Thread nD τ).loc main_arg1)) :=
  (W4_of_ne m ρ c main_v3 (by decide)).trans (W3_v3 m ρ c)

theorem W4_arg5 (c : Dev nD) : W4 m ρ c (Proc.devRef .tc main_arg5) = m ((c : Thread nD τ).loc main_arg5) :=
  (W4_of_ne m ρ c main_arg5 (by decide)).trans (W3_arg5 m ρ c)

theorem W4_arg6 (c : Dev nD) : W4 m ρ c (Proc.devRef .tc main_arg6) = m ((c : Thread nD τ).loc main_arg6) :=
  (W4_of_ne m ρ c main_arg6 (by decide)).trans (W3_arg6 m ρ c)

theorem W4_arg7 (c : Dev nD) : W4 m ρ c (Proc.devRef .tc main_arg7) = m ((c : Thread nD τ).loc main_arg7) :=
  (W4_of_ne m ρ c main_arg7 (by decide)).trans (W3_arg7 m ρ c)

theorem W4_arg8 (c : Dev nD) : W4 m ρ c (Proc.devRef .tc main_arg8) = m ((c : Thread nD τ).loc main_arg8) :=
  (W4_of_ne m ρ c main_arg8 (by decide)).trans (W3_arg8 m ρ c)

theorem W4_arg9 (c : Dev nD) : W4 m ρ c (Proc.devRef .tc main_arg9) = m ((c : Thread nD τ).loc main_arg9) :=
  (W4_of_ne m ρ c main_arg9 (by decide)).trans (W3_arg9 m ρ c)

/-- The second aggregation, for any contents `Hc` of the hidden layer's buffer. -/
theorem W5_v36_of (c : Dev nD) (Hc : S100000x64.Idx → EReal) (hH : W4 m ρ c (Proc.devRef .tc main_v25) = Hc) :
    W5 m ρ c (Proc.devRef .tc main_v36) = aggregate (m ((c : Thread nD τ).loc main_arg1)) Hc := by
  show StableHlo.after hostOps2 (W4 m ρ c) (Proc.devRef .tc main_v36) = _
  after_results
  rw [W4_v3, hH, W4_v1]
  rfl

theorem W5_v36 (c : Dev nD) : W5 m ρ c (Proc.devRef .tc main_v36) = aggregate (m ((c : Thread nD τ).loc main_arg1)) (sage1 (aggregate (m ((c : Thread nD τ).loc main_arg1)) (proj (m ((c : Thread nD τ).loc main_arg0)) (m ((c : Thread nD τ).loc main_arg2)))) (invDeg (m ((c : Thread nD τ).loc main_arg1))) (m ((c : Thread nD τ).loc main_arg0)) (m ((c : Thread nD τ).loc main_arg4)) (biasRow64 (m ((c : Thread nD τ).loc main_arg3)))) :=
  W5_v36_of m ρ c _ (W4_v25 m ρ c)

theorem W5_v37 (c : Dev nD) : W5 m ρ c (Proc.devRef .tc main_v37) = biasRow64 (m ((c : Thread nD τ).loc main_arg6)) := by
  show StableHlo.after hostOps2 (W4 m ρ c) (Proc.devRef .tc main_v37) = _
  after_results
  rw [W4_arg6]
  rfl

theorem W5_v38 (c : Dev nD) : W5 m ρ c (Proc.devRef .tc main_v38) = biasRow112 (m ((c : Thread nD τ).loc main_arg9)) := by
  show StableHlo.after hostOps2 (W4 m ρ c) (Proc.devRef .tc main_v38) = _
  after_results
  rw [W4_arg9]
  rfl

theorem W5_v12 (c : Dev nD) : W5 m ρ c (Proc.devRef .tc main_v12) = invDeg (m ((c : Thread nD τ).loc main_arg1)) :=
  (by host_kept hostOps2 : W5 m ρ c (Proc.devRef .tc main_v12) = W4 m ρ c (Proc.devRef .tc main_v12)).trans (W4_v12 m ρ c)

theorem W5_v25 (c : Dev nD) : W5 m ρ c (Proc.devRef .tc main_v25) = sage1 (aggregate (m ((c : Thread nD τ).loc main_arg1)) (proj (m ((c : Thread nD τ).loc main_arg0)) (m ((c : Thread nD τ).loc main_arg2)))) (invDeg (m ((c : Thread nD τ).loc main_arg1))) (m ((c : Thread nD τ).loc main_arg0)) (m ((c : Thread nD τ).loc main_arg4)) (biasRow64 (m ((c : Thread nD τ).loc main_arg3))) :=
  (by host_kept hostOps2 : W5 m ρ c (Proc.devRef .tc main_v25) = W4 m ρ c (Proc.devRef .tc main_v25)).trans (W4_v25 m ρ c)

theorem W5_arg5 (c : Dev nD) : W5 m ρ c (Proc.devRef .tc main_arg5) = m ((c : Thread nD τ).loc main_arg5) :=
  (by host_kept hostOps2 : W5 m ρ c (Proc.devRef .tc main_arg5) = W4 m ρ c (Proc.devRef .tc main_arg5)).trans (W4_arg5 m ρ c)

theorem W5_arg7 (c : Dev nD) : W5 m ρ c (Proc.devRef .tc main_arg7) = m ((c : Thread nD τ).loc main_arg7) :=
  (by host_kept hostOps2 : W5 m ρ c (Proc.devRef .tc main_arg7) = W4 m ρ c (Proc.devRef .tc main_arg7)).trans (W4_arg7 m ρ c)

theorem W5_arg8 (c : Dev nD) : W5 m ρ c (Proc.devRef .tc main_arg8) = m ((c : Thread nD τ).loc main_arg8) :=
  (by host_kept hostOps2 : W5 m ρ c (Proc.devRef .tc main_arg8) = W4 m ρ c (Proc.devRef .tc main_arg8)).trans (W4_arg8 m ρ c)

/-- THE RESULT: the last boundary's contents at the result's buffer, as one function of the argument arrays. -/
theorem W6_result (c : Dev nD) : W6 m ρ c (Proc.devRef .tc main_v39) = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 8).trans ((region2_array (V5 m ρ) c).trans ?_)
  show sage2 (W5 m ρ c (Proc.devRef .tc main_v36)) (W5 m ρ c (Proc.devRef .tc main_v12)) (W5 m ρ c (Proc.devRef .tc main_v25)) (W5 m ρ c (Proc.devRef .tc main_arg5)) (W5 m ρ c (Proc.devRef .tc main_v37)) (W5 m ρ c (Proc.devRef .tc main_arg7)) (W5 m ρ c (Proc.devRef .tc main_arg8)) (W5 m ρ c (Proc.devRef .tc main_v38)) = _
  rw [W5_v36, W5_v12, W5_v25, W5_arg5, W5_v37, W5_arg7, W5_arg8, W5_v38]
  rfl

end Cert.KernelIdeal.SageFold

end
-- ==== Proof.LibGcnLayer.lean ====
/-
  The algebra of one graph-convolution layer with symmetric normalisation, over the extended reals.

  With `D` the per-node factor (the inverse square root of the degree), `h` the node features after the dense product,
  and an edge list (source row `s e`, destination row `t e`), the reference sums `h (s e) · (D (s e) · D (t e))` over the
  edges that land on node `i` and adds the self loop `h i · (D i · D i)`.  The kernel scales the features once,
  `hs = h · D`, sums `hs (s e)` over the same edges, adds `hs i`, and multiplies the total by `D i`.  The two agree because
  every edge in the sum has `D (t e) = D i`, multiplication distributes over a finite sum of REAL numbers, and products
  of reals commute; on the extended reals distributivity can fail at the infinities, so every quantity is first shown
  to be a real number.
-/
import Idealize.ShloMosaic.PureOps.Ideal

noncomputable section

namespace Cert.GcnAlgebra

open Idealize.ShloMosaic

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.max {x y : EReal} (hx : IsFin x) (hy : IsFin y) : IsFin (max x y) := by
  rcases max_choice x y with h | h <;> rw [h] <;> assumption

/-- A finite sum of coerced reals is the coerced sum. -/
theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

theorem IsFin.sum {ι : Type} (s : Finset ι) (f : ι → EReal) (h : ∀ j, IsFin (f j)) : IsFin (∑ j ∈ s, f j) := by
  choose g hg using h
  exact ⟨∑ j ∈ s, g j, by rw [← coe_sum]; exact Finset.sum_congr rfl fun j _ => hg j⟩

/-- The inverse square root of a positive real is a real. -/
theorem IsFin.rsqrt_of_pos {r : ℝ} (hr : 0 < r) : IsFin (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- THE LAYER IDENTITY on one output entry.  `S` is the set of (edge, column) slots landing on the entry; `a j` the
    feature the slot gathers, `p j` the source node's factor, `q j` the destination node's factor as the reference
    gathers it, which on `S` is the entry's own factor `D`; `H` the entry's own feature. -/
theorem fold_scale {T : Type} (S : Finset T) (a p q : T → EReal) (H D : EReal)
    (ha : ∀ j, IsFin (a j)) (hp : ∀ j, IsFin (p j)) (hH : IsFin H) (hD : IsFin D)
    (hq : ∀ j ∈ S, q j = D) :
    D * ((0 + ∑ j ∈ S, a j * p j) + H * D) = (0 + ∑ j ∈ S, a j * (p j * q j)) + H * (D * D) := by
  obtain ⟨d, rfl⟩ := hD
  obtain ⟨h, rfl⟩ := hH
  choose a' ha' using ha
  choose p' hp' using hp
  have e1 : ∑ j ∈ S, a j * (p j * q j) = ∑ j ∈ S, ((a' j * (p' j * d) : ℝ) : EReal) :=
    Finset.sum_congr rfl fun j hj => by rw [hq j hj, ha', hp', EReal.coe_mul, EReal.coe_mul]
  have e2 : ∑ j ∈ S, a j * p j = ∑ j ∈ S, ((a' j * p' j : ℝ) : EReal) :=
    Finset.sum_congr rfl fun j _ => by rw [ha', hp', EReal.coe_mul]
  rw [e1, e2, coe_sum, coe_sum, zero_add, zero_add, ← EReal.coe_mul, ← EReal.coe_add, ← EReal.coe_mul,
    ← EReal.coe_mul, ← EReal.coe_mul, ← EReal.coe_add]
  refine congrArg _ ?_
  rw [mul_add, Finset.mul_sum]
  congr 1
  · exact Finset.sum_congr rfl fun j _ => by ring
  · ring

end Cert.GcnAlgebra

end
-- ==== Proof.SageAlgebra.lean ====
/-
  The algebra that joins the two arrangements of a mean-aggregating graph layer, over the extended reals.

  A node's neighbourhood mean is the sum of the gathered rows divided by the clamped degree `d = max (deg, 1)`.
  The degree is a count of ones, so `d` is a real number that is at least one; in particular it is not zero, and
  multiplying by `1 / d` is dividing by `d`.  One arrangement projects every row through a weight column first,
  sums the projected rows, and multiplies by `1 / d`; the other sums the rows, divides by `d`, and projects the
  mean.  For REAL features and weights they agree: a finite sum of products distributes over the weight column, and the
  two sums (over the edges, over the feature axis) commute.  On the extended reals distributivity can fail at the
  infinities, so the features and the weights are first shown to be real numbers.
-/
import Idealize.ShloMosaic.PureOps.Ideal
import Idealize.ShloMosaic.Lib.IdealHost
import proofs.«139927_j56255481643658_2_alg».proof.Proof.LibGcnLayer

noncomputable section

namespace Cert.SageAlgebra

open Idealize.ShloMosaic Cert.GcnAlgebra

/-- A count of ones, clamped below by one, is a real number that is at least one. -/
theorem clamped_degree_real {T : Type} (S : Finset T) :
    ∃ r : ℝ, 1 ≤ r ∧ max ((0 : EReal) + ∑ _j ∈ S, (1 : EReal)) 1 = (r : EReal) := by
  obtain ⟨r, hr⟩ := IsFin.max (IsFin.add IsFin.zero (IsFin.sum S (fun _ => (1 : EReal)) fun _ => IsFin.one)) IsFin.one
  refine ⟨r, ?_, hr⟩
  have h1 : (1 : EReal) ≤ (r : EReal) := hr ▸ le_max_right _ _
  exact_mod_cast h1

/-- A real number that is at least one is not zero as an extended real. -/
theorem coe_ne_zero_of_one_le {r : ℝ} (hr : 1 ≤ r) : (r : EReal) ≠ 0 := by
  have : r ≠ 0 := by linarith
  exact_mod_cast this

/-- PROJECT THEN AVERAGE = AVERAGE THEN PROJECT, on one output entry.  `S` is the set of edges that land on the node,
    `a e k` feature `k` of the row edge `e` gathers, `w k` the weight column, `d` the clamped degree. -/
theorem project_mean {E K : Type} [Fintype K] (S : Finset E) (a : E → K → EReal) (w : K → EReal) (d : EReal)
    (ha : ∀ e k, IsFin (a e k)) (hw : ∀ k, IsFin (w k)) (hd : ∃ r : ℝ, 1 ≤ r ∧ d = (r : EReal)) :
    (0 + ∑ e ∈ S, ∑ k, a e k * w k) * Ideal.div 1 d = ∑ k, Ideal.div (0 + ∑ e ∈ S, a e k) d * w k := by
  obtain ⟨r, hr1, rfl⟩ := hd
  have hr0 : r ≠ 0 := by linarith
  rw [Ideal.mul_one_div (coe_ne_zero_of_one_le hr1)]
  simp only [Ideal.div_coe hr0]
  choose a' ha' using ha
  choose w' hw' using hw
  have e1 : ∑ e ∈ S, ∑ k, a e k * w k = ((∑ e ∈ S, ∑ k, a' e k * w' k : ℝ) : EReal) := by
    rw [← coe_sum]
    refine Finset.sum_congr rfl fun e _ => ?_
    rw [← coe_sum]
    exact Finset.sum_congr rfl fun k _ => by rw [ha', hw', EReal.coe_mul]
  have e2 : ∀ k, (0 + ∑ e ∈ S, a e k) * ((1 / r : ℝ) : EReal) * w k
      = (((∑ e ∈ S, a' e k) * (1 / r) * w' k : ℝ) : EReal) := by
    intro k
    have : ∑ e ∈ S, a e k = ((∑ e ∈ S, a' e k : ℝ) : EReal) := by
      rw [← coe_sum]; exact Finset.sum_congr rfl fun e _ => ha' e k
    rw [this, zero_add, hw', ← EReal.coe_mul, ← EReal.coe_mul]
  rw [e1, zero_add, ← EReal.coe_mul, Finset.sum_congr rfl (fun k _ => e2 k), coe_sum]
  refine congrArg _ ?_
  rw [Finset.sum_comm, Finset.sum_mul]
  refine Finset.sum_congr rfl fun k _ => ?_
  rw [← Finset.sum_mul]
  ring

end Cert.SageAlgebra

end
-- ==== Proof.LibRowGather.lean ====
/-
  Row gathers and row scatters read at an index.

  `x[idx]` of a matrix `x : [N, F]` (or a vector `x : [N]`) at a column of integers `idx : [E, 1]` is a gather whose
  result row `e` is row `clamp (idx e)` of the operand: the start index is read signed, a negative one becomes `0`, and
  it is cut at `N - 1`. The matrix form and the vector form clamp in the same way, so the row a matrix gather reads is the
  entry a vector gather with the same indices reads.  A scatter of rows `u : [E, F]` into `[N, F]` at such a column
  sends update `(e, f)` to `(idx e, f)` when `0 ≤ idx e < N`, and drops it otherwise: nothing is clamped there.
-/
import Idealize.ShloMosaic.PureOps.ShapeOps
import Idealize.ShloMosaic.Lib.ValueIdx

noncomputable section

namespace Cert.RowIndexing

open Idealize.ShloMosaic Idealize.ShloMosaic.ValueIdx

/-- The dimension numbers of `x[idx]` for a matrix `x : [N, F]` and a column of indices `[E, 1]`. -/
abbrev rowGatherDims (N E F : Nat)
    (wf : GatherDims.WF (⟨2, ![N, F]⟩ : Shape) ⟨2, ![E, 1]⟩ ⟨2, ![E, F]⟩ [1] [0] [] [0] [] 1 ![1, F]) :
    GatherDims (⟨2, ![N, F]⟩ : Shape) ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x[idx]` for a vector `x : [N]` and a column of indices `[E, 1]`. -/
abbrev vecGatherDims (N E : Nat)
    (wf : GatherDims.WF (⟨1, ![N]⟩ : Shape) ⟨2, ![E, 1]⟩ ⟨1, ![E]⟩ [] [0] [] [0] [] 1 ![1]) :
    GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row an index column selects at position `e`: the entry read signed, cut to `[0, N - 1]`. -/
def clampRow {N E w : Nat} (hN : 0 < N) (idx : IVec (⟨2, ![E, 1]⟩ : Shape) w) (e : Fin E) : Fin N :=
  ⟨min (idx (ix2 e (0 : Fin 1))).toInt.toNat (N - 1), by omega⟩

/-- The operand index a matrix gather reads at `(e, f)`: row `clampRow idx e`, column `f`. -/
theorem rowGather_operandIdx {N E F w : Nat} (hN : 0 < N) (wf)
    (idx : IVec (⟨2, ![E, 1]⟩ : Shape) w) (e : Fin E) (f : Fin F) :
    (rowGatherDims N E F wf).operandIdx (ix2 e f) idx = ix2 (clampRow hN idx e) f := by
  funext a
  refine Fin.ext ?_
  have hsi : ∀ c, (rowGatherDims N E F wf).siIdx (ix2 e f) c = ix2 e (0 : Fin 1) := by
    intro c
    funext b; refine Fin.ext ?_
    match b with
    | ⟨0, _⟩ => rfl
    | ⟨1, _⟩ => show c.val = 0; have := c.isLt; exact Nat.lt_one_iff.mp this
  match a with
  | ⟨0, h0⟩ =>
    show (rowGatherDims N E F wf).start (ix2 e f) idx ⟨0, h0⟩ + (rowGatherDims N E F wf).batchCoord (ix2 e f) ⟨0, h0⟩
      + (rowGatherDims N E F wf).offCoord (ix2 e f) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E F wf).startIndexMap from List.mem_singleton.mpr rfl)]
    rw [hsi]
    rfl
  | ⟨1, h1⟩ =>
    show (rowGatherDims N E F wf).start (ix2 e f) idx ⟨1, h1⟩ + (rowGatherDims N E F wf).batchCoord (ix2 e f) ⟨1, h1⟩
      + (rowGatherDims N E F wf).offCoord (ix2 e f) ⟨1, h1⟩ = _
    rw [GatherDims.batchCoord_eq_zero _ _ _ List.not_mem_nil]
    unfold GatherDims.start
    rw [dif_neg (show ¬ (⟨1, h1⟩ : Fin 2) ∈ (rowGatherDims N E F wf).startIndexMap from
      fun h => absurd (congrArg Fin.val (List.mem_singleton.mp h)) Nat.one_ne_zero)]
    simp only [Nat.add_zero, Nat.zero_add]
    rfl

/-- A matrix gather at `(e, f)` reads row `clampRow idx e`, column `f`. -/
theorem rowGather_apply {N E F w : Nat} {α : Type} (hN : 0 < N) (wf)
    (x : (⟨2, ![N, F]⟩ : Shape).Idx → α) (idx : IVec (⟨2, ![E, 1]⟩ : Shape) w) (e : Fin E) (f : Fin F) :
    Host.gather (rowGatherDims N E F wf) x idx (ix2 e f) = x (ix2 (clampRow hN idx e) f) :=
  congrArg x (rowGather_operandIdx hN wf idx e f)

/-- The operand index a vector gather reads at `e`: entry `clampRow idx e`. -/
theorem vecGather_operandIdx {N E w : Nat} (hN : 0 < N) (wf)
    (idx : IVec (⟨2, ![E, 1]⟩ : Shape) w) (e : Fin E) :
    (vecGatherDims N E wf).operandIdx (ix1 e) idx = ix1 (clampRow hN idx e) := by
  funext a
  obtain rfl : a = 0 := Subsingleton.elim _ _
  refine Fin.ext ?_
  have hsi : ∀ c, (vecGatherDims N E wf).siIdx (ix1 e) c = ix2 e (0 : Fin 1) := by
    intro c
    funext b; refine Fin.ext ?_
    match b with
    | ⟨0, _⟩ => rfl
    | ⟨1, _⟩ => show c.val = 0; have := c.isLt; exact Nat.lt_one_iff.mp this
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [hsi]
  rfl

/-- A vector gather at `e` reads entry `clampRow idx e`. -/
theorem vecGather_apply {N E w : Nat} {α : Type} (hN : 0 < N) (wf)
    (x : (⟨1, ![N]⟩ : Shape).Idx → α) (idx : IVec (⟨2, ![E, 1]⟩ : Shape) w) (e : Fin E) :
    Host.gather (vecGatherDims N E wf) x idx (ix1 e) = x (ix1 (clampRow hN idx e)) :=
  congrArg x (vecGather_operandIdx hN wf idx e)

/-- The dimension numbers of a scatter of rows `[E, F]` into `[N, F]` at a column of indices `[E, 1]`. -/
abbrev rowScatterDims (N E F : Nat)
    (wf : ScatterDims.WF (⟨2, ![N, F]⟩ : Shape) ⟨2, ![E, 1]⟩ ⟨2, ![E, F]⟩ [1] [0] [0] 1) :
    ScatterDims (⟨2, ![N, F]⟩ : Shape) ⟨2, ![E, 1]⟩ ⟨2, ![E, F]⟩ where
  updateWindowDims := [1]
  insertedWindowDims := [0]
  scatterDimsToOperandDims := [0]
  indexVectorDim := 1
  wf := wf

/-- Where update row `e` lands, when it lands: the row its index names, read signed and NOT clamped. -/
theorem rowScatter_row {N E F w : Nat} (wf) (idx : IVec (⟨2, ![E, 1]⟩ : Shape) w) (j : (⟨2, ![E, F]⟩ : Shape).Idx)
    (i : (⟨2, ![N, F]⟩ : Shape).Idx) (h : (rowScatterDims N E F wf).resultIdx? j idx = some i) :
    (idx (ix2 (j 0) (0 : Fin 1))).toInt = ((i 0).val : Int) := by
  unfold ScatterDims.resultIdx? at h
  split at h
  · rename_i hall
    have hi := Option.some.inj h
    have h0 := congrArg (fun k : (⟨2, ![N, F]⟩ : Shape).Idx => (k 0).val) hi
    simp only at h0
    have hw : (rowScatterDims N E F wf).window j 0 = 0 := by
      unfold ScatterDims.window
      rw [dif_neg (fun hk => by
        have hk' : (0 : Fin 2) ∈ (List.finRange 2).filter (fun a : Fin 2 => a ∉ [(0 : Fin 2)]) := hk
        revert hk'; decide)]
    have hs : (rowScatterDims N E F wf).start j idx 0 = (idx (ix2 (j 0) (0 : Fin 1))).toInt := by
      unfold ScatterDims.start
      rw [dif_pos (show (0 : Fin 2) ∈ (rowScatterDims N E F wf).scatterDimsToOperandDims from List.mem_singleton.mpr rfl)]
      congr 2
      funext b; refine Fin.ext ?_
      match b with
      | ⟨0, _⟩ => rfl
      | ⟨1, _⟩ => rfl
    have hr := hall 0
    rw [hw, hs] at hr
    rw [hw, hs] at h0
    omega
  · exact absurd h (by simp)

end Cert.RowIndexing

end
-- ==== Proof.LibRowScatterSum.lean ====
/-
  A scatter-add of rows read at an entry, over the extended reals.

  A scatter of update rows `u : [E, F]` into `[N, F]` at a column of integers `idx : [E, 1]` sends update `(e, c)` to
  `(idx e, c)` when `0 ≤ idx e < N` and drops it otherwise.  So the update entries that land on `(n, f)` are exactly
  the entries `(e, f)` of the rows `e` whose index, read signed, is `n`; the set of those rows does not depend on the
  column `f`, nor on the width `F`.  With the host's accumulating scatter this makes the result at `(n, f)` the operand
  there plus the sum of `u (e, f)` over those rows.
-/
import proofs.«139927_j56255481643658_2_alg».proof.Proof.LibRowGather
import Idealize.ShloMosaic.PureOps.Ideal

noncomputable section

namespace Cert.RowIndexing

open Idealize.ShloMosaic Idealize.ShloMosaic.ValueIdx

/-- The rows of an index column that name node `n`: the index read signed equals `n`. -/
def rowsAt {N E w : Nat} (idx : IVec (⟨2, ![E, 1]⟩ : Shape) w) (n : Fin N) : Finset (Fin E) :=
  Finset.univ.filter fun e => (idx (ix2 e (0 : Fin 1))).toInt = ((n.val : Nat) : Int)

/-- Update `(e, c)` lands on `(n, f)` exactly when row `e` names `n` and the column is kept. -/
theorem rowScatter_lands_iff {N E F w : Nat} (wf) (idx : IVec (⟨2, ![E, 1]⟩ : Shape) w)
    (e : Fin E) (c : Fin F) (n : Fin N) (f : Fin F) :
    (rowScatterDims N E F wf).resultIdx? (ix2 e c) idx = some (ix2 n f)
      ↔ (idx (ix2 e (0 : Fin 1))).toInt = ((n.val : Nat) : Int) ∧ c = f := by
  have hw0 : (rowScatterDims N E F wf).window (ix2 e c) 0 = 0 := by
    unfold ScatterDims.window
    rw [dif_neg (fun hk => by
      have hk' : (0 : Fin 2) ∈ (List.finRange 2).filter (fun a : Fin 2 => a ∉ [(0 : Fin 2)]) := hk
      revert hk'; decide)]
  have hs0 : (rowScatterDims N E F wf).start (ix2 e c) idx 0 = (idx (ix2 e (0 : Fin 1))).toInt := by
    unfold ScatterDims.start
    rw [dif_pos (show (0 : Fin 2) ∈ (rowScatterDims N E F wf).scatterDimsToOperandDims from List.mem_singleton.mpr rfl)]
    congr 2
    funext b; refine Fin.ext ?_
    match b with
    | ⟨0, _⟩ => rfl
    | ⟨1, _⟩ => rfl
  have hs1 : (rowScatterDims N E F wf).start (ix2 e c) idx 1 = 0 := by
    unfold ScatterDims.start
    rw [dif_neg (show ¬ (1 : Fin 2) ∈ (rowScatterDims N E F wf).scatterDimsToOperandDims from
      fun h => absurd (congrArg Fin.val (List.mem_singleton.mp h)) Nat.one_ne_zero)]
  have hw1 : (rowScatterDims N E F wf).window (ix2 e c) 1 = c.val := by
    have hmem : (1 : Fin 2) ∈ (rowScatterDims N E F wf).sKept :=
      (by decide : (1 : Fin 2) ∈ (List.finRange 2).filter (fun a : Fin 2 => a ∉ [(0 : Fin 2)]))
    unfold ScatterDims.window
    rw [dif_pos hmem]
    rfl
  unfold ScatterDims.resultIdx?
  constructor
  · intro h
    split at h
    · rename_i hall
      have hi := Option.some.inj h
      have h0 := congrArg (fun k : (⟨2, ![N, F]⟩ : Shape).Idx => (k 0).val) hi
      have h1 := congrArg (fun k : (⟨2, ![N, F]⟩ : Shape).Idx => (k 1).val) hi
      simp only at h0 h1
      have r0 := hall 0
      rw [hs0, hw0] at r0 h0
      rw [hs1, hw1] at h1
      refine ⟨?_, Fin.ext ?_⟩
      · have : ((ix2 n f : (⟨2, ![N, F]⟩ : Shape).Idx) 0).val = n.val := rfl
        omega
      · have : ((ix2 n f : (⟨2, ![N, F]⟩ : Shape).Idx) 1).val = f.val := rfl
        omega
    · exact absurd h (by simp)
  · rintro ⟨hn, rfl⟩
    have hall : ∀ a, 0 ≤ (rowScatterDims N E F wf).start (ix2 e c) idx a + (rowScatterDims N E F wf).window (ix2 e c) a
        ∧ (rowScatterDims N E F wf).start (ix2 e c) idx a + (rowScatterDims N E F wf).window (ix2 e c) a
          < (⟨2, ![N, F]⟩ : Shape).size a := by
      intro a
      match a with
      | ⟨0, _⟩ =>
        show 0 ≤ (rowScatterDims N E F wf).start (ix2 e c) idx 0 + (rowScatterDims N E F wf).window (ix2 e c) 0
          ∧ (rowScatterDims N E F wf).start (ix2 e c) idx 0 + (rowScatterDims N E F wf).window (ix2 e c) 0 < (N : Int)
        rw [hs0, hw0, hn]; have := n.isLt; omega
      | ⟨1, _⟩ =>
        show 0 ≤ (rowScatterDims N E F wf).start (ix2 e c) idx 1 + (rowScatterDims N E F wf).window (ix2 e c) 1
          ∧ (rowScatterDims N E F wf).start (ix2 e c) idx 1 + (rowScatterDims N E F wf).window (ix2 e c) 1 < (F : Int)
        rw [hs1, hw1]; have := c.isLt; omega
    rw [dif_pos hall]
    refine congrArg some ?_
    funext a; refine Fin.ext ?_
    match a with
    | ⟨0, _⟩ =>
      show ((rowScatterDims N E F wf).start (ix2 e c) idx 0 + (rowScatterDims N E F wf).window (ix2 e c) 0).toNat = n.val
      rw [hs0, hw0, hn]; omega
    | ⟨1, _⟩ =>
      show ((rowScatterDims N E F wf).start (ix2 e c) idx 1 + (rowScatterDims N E F wf).window (ix2 e c) 1).toNat = c.val
      rw [hs1, hw1]; omega

/-- The host's accumulating scatter of rows at `(n, f)`: the operand there plus the sum over the rows naming `n` of
    their entry in column `f`. -/
theorem rowScatterAdd_apply {N E F w : Nat} (wf) (x : (⟨2, ![N, F]⟩ : Shape).Idx → EReal)
    (idx : IVec (⟨2, ![E, 1]⟩ : Shape) w) (u : (⟨2, ![E, F]⟩ : Shape).Idx → EReal) (n : Fin N) (f : Fin F) :
    Ideal.hostScatterAdd (rowScatterDims N E F wf) x idx u (ix2 n f)
      = x (ix2 n f) + ∑ e ∈ rowsAt idx n, u (ix2 e f) := by
  unfold Ideal.hostScatterAdd
  refine congrArg (x (ix2 n f) + ·) ?_
  symm
  refine Finset.sum_bij (fun e _ => ix2 e f) ?_ ?_ ?_ ?_
  · intro e he
    have he' := (Finset.mem_filter.mp he).2
    exact Finset.mem_filter.mpr ⟨Finset.mem_univ _, (rowScatter_lands_iff wf idx e f n f).mpr ⟨he', rfl⟩⟩
  · intro e _ e' _ h
    exact congrFun h 0
  · intro j hj
    have hj' := (Finset.mem_filter.mp hj).2
    rw [eq_ix2 j] at hj'
    obtain ⟨h0, h1⟩ := (rowScatter_lands_iff wf idx (j 0) (j 1) n f).mp hj'
    refine ⟨j 0, Finset.mem_filter.mpr ⟨Finset.mem_univ _, h0⟩, ?_⟩
    rw [eq_ix2 j]
    exact congrArg (ix2 (j 0)) h1.symm
  · intro e _
    rfl

end Cert.RowIndexing

end
-- ==== Proof.LibMeanAggregate.lean ====
/-
  Neighbourhood sums and clamped degrees of an edge list, read at an entry, over the extended reals.

  An edge list gives every edge a source row and a destination row.  Gathering the rows of a matrix at the sources and
  adding them up at the destinations leaves, at `(n, f)`, the start value there plus the sum over the edges whose
  destination is `n` of entry `f` of the edge's source row.  Scattering ones at the destinations into zeros counts
  the edges landing on each node; the count clamped below by one is a real number that is at least one.
  Everything here is stated over abstract sizes and arrays: nothing is evaluated.
-/
import proofs.«139927_j56255481643658_2_alg».proof.Proof.LibRowScatterSum
import proofs.«139927_j56255481643658_2_alg».proof.Proof.LibGcnLayer
import Idealize.ShloMosaic.PureOps.Ideal
import Idealize.ShloMosaic.PureOps.Contract

noncomputable section

namespace Cert.RowIndexing

open Idealize.ShloMosaic Idealize.ShloMosaic.ValueIdx Cert.GcnAlgebra

/-- Rows gathered at the sources, added up at the destinations, at `(n, f)`. -/
theorem rowAggregate_apply {N E F w : Nat} (wfS) (wfG) (hN : 0 < N) (z : FVec Ideal (⟨2, ![N, F]⟩ : Shape) .f32)
    (dst src : IVec (⟨2, ![E, 1]⟩ : Shape) w) (Y : (⟨2, ![N, F]⟩ : Shape).Idx → EReal) (n : Fin N) (f : Fin F) :
    Host.scatterAdd (F := Ideal) (φ := .f32) (rowScatterDims N E F wfS) z dst
        (Host.gather (rowGatherDims N E F wfG) Y src) (ix2 n f)
      = z (ix2 n f) + ∑ e ∈ rowsAt dst n, Y (ix2 (clampRow hN src e) f) := by
  show Ideal.hostScatterAdd (rowScatterDims N E F wfS) z dst (Host.gather (rowGatherDims N E F wfG) Y src) (ix2 n f) = _
  rw [rowScatterAdd_apply]
  exact congrArg (z (ix2 n f) + ·) (Finset.sum_congr rfl fun e _ => rowGather_apply hN wfG Y src e f)

/-- A count of ones, clamped below by one, is a real number that is at least one (the count itself never matters). -/
theorem clamped_count_real {T : Type} (S : Finset T) :
    ∃ r : ℝ, 1 ≤ r ∧ max ((0 : EReal) + ∑ _j ∈ S, (1 : EReal)) 1 = (r : EReal) := by
  obtain ⟨r, hr⟩ := IsFin.max (IsFin.add IsFin.zero (IsFin.sum S (fun _ => (1 : EReal)) fun _ => IsFin.one)) IsFin.one
  refine ⟨r, ?_, hr⟩
  have h1 : (1 : EReal) ≤ (r : EReal) := hr ▸ le_max_right _ _
  exact_mod_cast h1

/-- Ones scattered (by any scatter) into zeros, clamped below by one: at every entry a real number at least one. -/
theorem clampedScatterOnes_real {s si su : Shape} (d : ScatterDims s si su) {w : Nat} (idx : IVec si w)
    (z : FVec Ideal s .f32) (u : FVec Ideal su .f32) (o : FVec Ideal s .f32)
    (hz : ∀ i, z i = 0) (hu : ∀ j, u j = 1) (ho : ∀ i, o i = 1) (i : s.Idx) :
    ∃ r : ℝ, 1 ≤ r ∧ maximumf (Host.scatterAdd (F := Ideal) (φ := .f32) d z idx u) o i = (r : EReal) := by
  show ∃ r : ℝ, 1 ≤ r ∧ max (z i + ∑ j ∈ Finset.univ.filter (fun j => d.resultIdx? j idx = some i), u j) (o i) = (r : EReal)
  rw [hz i, ho i, Finset.sum_congr rfl fun j _ => hu j]
  exact clamped_count_real _

end Cert.RowIndexing

end
-- ==== Proof.SageBridge.lean ====
/-
  The two programs compute one function of the argument arrays.

  Read at an entry, the reference's first hidden layer is
    `max (((Σ_k (S (n, k) / d n) · W1l (k, j)) + b1 j) + Σ_k x (n, k) · W1r (k, j), 0)`
  where `S (n, k)` sums feature `k` of the source rows of the edges landing on `n` and `d n` is the clamped
  degree, while the kernel's is
    `max ((((Σ_e Σ_k x (src e, k) · W1l (k, j)) · (1 / d n)) + b1 j) + Σ_k x (n, k) · W1r (k, j), 0)`.
  The edges landing on a node are the same set for every column and every width, so for real features and weights
  the two agree (project then average = average then project).  The second layer differs only in writing the mean as
  a product with `1 / d n` (the same number, since `d n ≠ 0`) and in the order of two additions.
-/
import proofs.«139927_j56255481643658_2_alg».proof.Proof.Gen.ReferenceIdeal.Read
import proofs.«139927_j56255481643658_2_alg».proof.Proof.SageFold
import proofs.«139927_j56255481643658_2_alg».proof.Proof.SageAlgebra
import proofs.«139927_j56255481643658_2_alg».proof.Proof.LibRowScatterSum
import proofs.«139927_j56255481643658_2_alg».proof.Proof.LibMeanAggregate
import Idealize.ShloMosaic.Lib.IdealHost
import Idealize.ShloMosaic.Lib.ValueLayout

set_option maxRecDepth 16384

noncomputable section

namespace Cert.SageBridge

open Cert.KernelIdeal Cert.KernelIdeal.Gen Cert.KernelIdeal.SageFold Cert.KernelIdeal.SageRegions Cert.KernelIdeal.SagePayloads
open Idealize.ShloMosaic Idealize.ShloMosaic.ValueIdx Cert.GcnAlgebra Cert.SageAlgebra Cert.RowIndexing
open Cert.ReferenceIdeal.Read (val_main_v9 val_main_v12 val_main_v13 val_main_v19 val_main_v20 val_main_v21 val_main_v22 val_main_v23 val_main_v24 val_main_v25 val_main_v26 val_main_v27 val_main_v28 val_main_v29 val_main_v39 val_main_v45 val_main_v46 val_main_v47 val_main_v48 val_main_v49 val_main_v50 val_main_v51 val_main_v52 val_main_v53 val_main_v54 val_main_v55 val_main_v56 val_main_v57 val_main_v58 val_main_v59 val_main_call0_v0 val_main_call0_cst val_main_call1_v0 val_main_call1_cst val_main_v20_apply val_main_v21_apply val_main_v22_apply val_main_v23_apply val_main_v24_apply val_main_v25_apply val_main_v26_apply val_main_v27_apply val_main_v28_apply val_main_v29_apply val_main_v46_apply val_main_v47_apply val_main_v48_apply val_main_v49_apply val_main_v50_apply val_main_v51_apply val_main_v52_apply val_main_v53_apply val_main_v54_apply val_main_v55_apply val_main_v56_apply val_main_v57_apply val_main_v58_apply val_main_v59_apply val_main_call0_v0_apply val_main_call0_cst_apply val_main_call1_v0_apply val_main_call1_cst_apply lidx_main_v23 ridx_main_v23 lidx_main_v27 ridx_main_v27 lidx_main_v49 ridx_main_v49 lidx_main_v53 ridx_main_v53 lidx_main_v56 ridx_main_v56 idx_main_v20 idx_main_v21 idx_main_v24 idx_main_v25 idx_main_v46 idx_main_v47 idx_main_v50 idx_main_v51 idx_main_v57 idx_main_v58 idx_main_call0_v0 idx_main_call1_v0)

macro "idx2" : tactic => `(tactic| (funext a; apply Fin.ext; match a with | ⟨0, _⟩ => rfl | ⟨1, _⟩ => rfl))
macro "idx1" : tactic => `(tactic| (funext a; apply Fin.ext; match a with | ⟨0, _⟩ => rfl))

variable (x0 : S100000x128.Idx → EReal) (x1 : IVec S2x1600000 32) (x2 : S128x64.Idx → EReal) (x3 : FVec Ideal S64 .f32)
  (x4 : S128x64.Idx → EReal) (x5 : S64x64.Idx → EReal) (x6 : FVec Ideal S64 .f32) (x7 : S64x64.Idx → EReal)
  (x8 : S64x112.Idx → EReal) (x9 : FVec Ideal S112 .f32)

/-! ## The shared host pieces: the two programs spell them with the same operations -/

/-- The source row edge `e` gathers. -/
abbrev srcOf (e : Fin 1600000) : Fin 100000 := clampRow (N := 100000) (by decide) (srcCol x1) e

/-- The edges landing on node `n`. -/
abbrev landing (n : Fin 100000) : Finset (Fin 1600000) := rowsAt (dstCol x1) n

/-- The reference's clamped degrees (it computes them once per layer) are the kernel program's. -/
theorem refDeg1_eq : val_main_v19 (F := Ideal) x1 = clampedDeg x1 := rfl
theorem refDeg2_eq : val_main_v45 (F := Ideal) x1 = clampedDeg x1 := rfl

/-- The reference's second aggregation is the kernel program's, of the same hidden features. -/
theorem refAgg2_eq : val_main_v39 (F := Ideal) x0 x1 x2 x3 x4 = aggregate x1 (val_main_v29 (F := Ideal) x0 x1 x2 x3 x4) := rfl

/-! ## The host pieces at an entry -/

/-- The clamped degree of a node is a real number that is at least one: a count of ones, clamped below by one. -/
theorem clampedDeg_real (n : Fin 100000) : ∃ r : ℝ, 1 ≤ r ∧ clampedDeg x1 (ix1 n) = (r : EReal) :=
  clampedScatterOnes_real scatter_S100000_S1600000x1_S1600000_n_0_0_1 (dstCol x1)
    (broadcastInDim S100000 ![] bcast_S_S100000 (constant (F := Ideal) S_ .f32 0x00000000#32))
    (broadcastInDim S1600000 ![] bcast_S_S1600000 (constant (F := Ideal) S_ .f32 0x3F800000#32))
    (broadcastInDim S100000 ![] bcast_S_S100000 (constant (F := Ideal) S_ .f32 0x3F800000#32))
    (fun _ => Ideal.ofBits_zero_f32) (fun _ => Ideal.ofBits_one_f32) (fun _ => Ideal.ofBits_one_f32) (ix1 n)

/-- The inverse degree column at `(n, 0)` is one over the clamped degree. -/
theorem invDeg_entry (n : Fin 100000) : invDeg x1 (ix2 n (0 : Fin 1)) = Ideal.div 1 (clampedDeg x1 (ix1 n)) := by
  unfold invDeg
  refine (shapeCast_apply _ shapeCasts_S100000_S100000x1 (ix2 n (0 : Fin 1)) (ix1 n) ?_).trans ?_
  · rw [Shape.rowMajor_val_two, Shape.rowMajor_val_one]
    show n.val = n.val * 1 + 0
    omega
  · rw [ValueIdx.hostDivf_apply]
    exact congrArg (fun t => Ideal.div t (clampedDeg x1 (ix1 n))) Ideal.ofBits_one_f32

/-- Neighbourhood sums at `(n, j)`: the gathered rows of the edges landing on `n`, column `j`. -/
theorem aggregate_entry (Y : S100000x64.Idx → EReal) (n : Fin 100000) (j : Fin 64) :
    aggregate x1 Y (ix2 n j) = 0 + ∑ e ∈ landing x1 n, Y (ix2 (srcOf x1 e) j) :=
  (rowAggregate_apply (N := 100000) (E := 1600000) (F := 64) scatter_S100000x64_S1600000x1_S1600000x64_1_0_0_1.wf
    gather_S100000x64_S1600000x1_S1600000x64_1_0_n_n_0_1_164.wf (by decide)
    (broadcastInDim S100000x64 ![] bcast_S_S100000x64 (constant (F := Ideal) S_ .f32 0x00000000#32)) (dstCol x1) (srcCol x1) Y n j).trans
    (congrArg (· + ∑ e ∈ landing x1 n, Y (ix2 (srcOf x1 e) j)) Ideal.ofBits_zero_f32)

/-- The reference's summed source features at `(n, k)`, over the same edges. -/
theorem refAgg_entry (n : Fin 100000) (k : Fin 128) :
    val_main_v13 (F := Ideal) x0 x1 (ix2 n k) = 0 + ∑ e ∈ landing x1 n, x0 (ix2 (srcOf x1 e) k) :=
  (rowAggregate_apply (N := 100000) (E := 1600000) (F := 128) Cert.ReferenceIdeal.scatter_S100000x128_S1600000x1_S1600000x128_1_0_0_1.wf
    Cert.ReferenceIdeal.gather_S100000x128_S1600000x1_S1600000x128_1_0_n_n_0_1_1128.wf (by decide)
    (Cert.ReferenceIdeal.Read.val_main_v11 (F := Ideal)) (dstCol x1) (srcCol x1) x0 n k).trans
    (congrArg (· + ∑ e ∈ landing x1 n, x0 (ix2 (srcOf x1 e) k)) Ideal.ofBits_zero_f32)

/-! ## The whole-array functions at an entry, for arbitrary arrays -/

section Entries
variable (A H : S100000x64.Idx → EReal) (IV : S100000x1.Idx → EReal) (X : S100000x128.Idx → EReal)
  (W : S128x64.Idx → EReal) (B : S1x64.Idx → EReal) (WL WR : S64x64.Idx → EReal) (WO : S64x112.Idx → EReal)
  (BO : S1x112.Idx → EReal)

theorem proj_ix2 (n : Fin 100000) (j : Fin 64) : proj X W (ix2 n j) = ∑ k : Fin 128, X (ix2 n k) * W (ix2 k j) := rfl

theorem sage1_ix2 (n : Fin 100000) (j : Fin 64) :
    sage1 A IV X W B (ix2 n j)
      = max ((A (ix2 n j) * IV (ix2 n (0 : Fin 1)) + B (ix2 (0 : Fin 1) j)) + ∑ k : Fin 128, X (ix2 n k) * W (ix2 k j))
          (Ideal.ofBits .f32 0x00000000#32) := rfl

theorem sage2_ix2 (n : Fin 100000) (o : Fin 112) :
    sage2 A IV H WL B WR WO BO (ix2 n o)
      = (∑ j : Fin 64, hid2 A IV H WL WR B n j * WO (ix2 j o)) + BO (ix2 (0 : Fin 1) o) := rfl

theorem hid2_eq (n : Fin 100000) (j : Fin 64) :
    hid2 A IV H WL WR B n j
      = max (((∑ k : Fin 64, (A (ix2 n k) * IV (ix2 n (0 : Fin 1))) * WL (ix2 k j)) + ∑ k : Fin 64, H (ix2 n k) * WR (ix2 k j))
          + B (ix2 (0 : Fin 1) j)) (Ideal.ofBits .f32 0x00000000#32) := rfl
end Entries

/-! ## The first hidden layer -/

/-- One term of the reference's projected mean: the summed source features over the clamped degree. -/
theorem refMean_entry (n : Fin 100000) (k : Fin 128) :
    val_main_v22 (F := Ideal) x0 x1 (ix2 n k)
      = Ideal.div (0 + ∑ e ∈ landing x1 n, x0 (ix2 (srcOf x1 e) k)) (clampedDeg x1 (ix1 n)) := by
  have e : idx_main_v20 (idx_main_v21 (ix2 n k)) = ix1 n := by idx1
  rw [val_main_v22_apply, val_main_v21_apply, val_main_v20_apply, refDeg1_eq, refAgg_entry, Ideal.hostDivf_def, e]

/-- The reference's mean, projected, at `(n, j)` is the kernel's projected sum times the inverse degree. -/
theorem mean_entry (hx : ∀ i, IsFin (x0 i)) (hw : ∀ i, IsFin (x2 i)) (n : Fin 100000) (j : Fin 64) :
    ∑ k : Fin 128, val_main_v22 (F := Ideal) x0 x1 (ix2 n k) * x2 (ix2 k j)
      = aggregate x1 (proj x0 x2) (ix2 n j) * invDeg x1 (ix2 n (0 : Fin 1)) := by
  rw [aggregate_entry, invDeg_entry, Finset.sum_congr rfl fun e _ => proj_ix2 x0 x2 (srcOf x1 e) j,
    Finset.sum_congr rfl fun k _ => congrArg (· * x2 (ix2 k j)) (refMean_entry x0 x1 n k)]
  exact (project_mean (landing x1 n) (fun e k => x0 (ix2 (srcOf x1 e) k)) (fun k => x2 (ix2 k j)) (clampedDeg x1 (ix1 n))
    (fun e k => hx _) (fun k => hw _) (clampedDeg_real x1 n)).symm

/-- THE FIRST HIDDEN LAYER: the reference's array is the kernel's, for real features and aggregation weights. -/
theorem hidden1_eq (hx : ∀ i, IsFin (x0 i)) (hw : ∀ i, IsFin (x2 i)) :
    val_main_v29 (F := Ideal) x0 x1 x2 x3 x4 = sage1 (aggregate x1 (proj x0 x2)) (invDeg x1) x0 x4 (biasRow64 x3) := by
  funext i
  obtain ⟨n, j, rfl⟩ : ∃ (n : Fin 100000) (j : Fin 64), i = ix2 n j := ⟨i 0, i 1, eq_ix2 i⟩
  rw [val_main_v29_apply, val_main_v28_apply, val_main_v26_apply, val_main_v23_apply, val_main_v27_apply, val_main_v25_apply,
    val_main_v24_apply, val_main_call0_v0_apply, val_main_call0_cst_apply, sage1_ix2]
  simp only [Ideal.maximumf_def, Ideal.addf_def, Ideal.ofBits_def]
  refine congrArg (fun s => max s (Ideal.ofBits .f32 0x00000000#32)) (congrArg₂ (· + ·) (congrArg₂ (· + ·) ?_ ?_) ?_)
  · refine Eq.trans (Finset.sum_congr rfl fun k _ => ?_) (mean_entry x0 x1 x2 hx hw n j)
    have e1 : lidx_main_v23 (ix2 n j) k = ix2 n k := by idx2
    have e2 : ridx_main_v23 (ix2 n j) k = ix2 k j := by idx2
    rw [e1, e2]
  · have e : idx_main_v24 (idx_main_v25 (ix2 n j)) = ix1 j := by idx1
    rw [e]
    exact (shapeCast_a_1a_apply x3 shapeCasts_S64_S1x64 (0 : Fin 1) j).symm
  · refine Finset.sum_congr rfl fun k _ => ?_
    have e1 : lidx_main_v27 (ix2 n j) k = ix2 n k := by idx2
    have e2 : ridx_main_v27 (ix2 n j) k = ix2 k j := by idx2
    rw [e1, e2]

/-! ## The second hidden layer and the output -/

/-- One term of the reference's second mean: the aggregated hidden features over the clamped degree, which is the
    kernel's product with the inverse degree. -/
theorem refMean2_entry (H : S100000x64.Idx → EReal) (hH : val_main_v29 (F := Ideal) x0 x1 x2 x3 x4 = H) (n : Fin 100000) (k : Fin 64) :
    val_main_v48 (F := Ideal) x0 x1 x2 x3 x4 (ix2 n k) = aggregate x1 H (ix2 n k) * invDeg x1 (ix2 n (0 : Fin 1)) := by
  obtain ⟨r, hr1, hr⟩ := clampedDeg_real x1 n
  have hd0 : clampedDeg x1 (ix1 n) ≠ 0 := hr ▸ coe_ne_zero_of_one_le hr1
  have e : idx_main_v46 (idx_main_v47 (ix2 n k)) = ix1 n := by idx1
  rw [val_main_v48_apply, val_main_v47_apply, val_main_v46_apply, refDeg2_eq, refAgg2_eq, hH, Ideal.hostDivf_def, invDeg_entry,
    Ideal.mul_one_div hd0, e]

/-- The reference's second hidden layer at `(n, j)` is the kernel's, given the first. -/
theorem hidden2_entry (H : S100000x64.Idx → EReal) (hH : val_main_v29 (F := Ideal) x0 x1 x2 x3 x4 = H) (n : Fin 100000) (j : Fin 64) :
    val_main_v55 (F := Ideal) x0 x1 x2 x3 x4 x5 x6 x7 (ix2 n j)
      = hid2 (aggregate x1 H) (invDeg x1) H x5 x7 (biasRow64 x6) n j := by
  rw [val_main_v55_apply, val_main_v54_apply, val_main_v52_apply, val_main_v49_apply, val_main_v53_apply, val_main_v51_apply,
    val_main_v50_apply, val_main_call1_v0_apply, val_main_call1_cst_apply, hid2_eq]
  simp only [Ideal.maximumf_def, Ideal.addf_def, Ideal.ofBits_def]
  rw [add_right_comm]
  refine congrArg (fun s => max s (Ideal.ofBits .f32 0x00000000#32)) (congrArg₂ (· + ·) (congrArg₂ (· + ·) ?_ ?_) ?_)
  · refine Finset.sum_congr rfl fun k _ => ?_
    have e1 : lidx_main_v49 (ix2 n j) k = ix2 n k := by idx2
    have e2 : ridx_main_v49 (ix2 n j) k = ix2 k j := by idx2
    rw [e1, e2, refMean2_entry x0 x1 x2 x3 x4 H hH n k]
  · refine Finset.sum_congr rfl fun k _ => ?_
    have e1 : lidx_main_v53 (ix2 n j) k = ix2 n k := by idx2
    have e2 : ridx_main_v53 (ix2 n j) k = ix2 k j := by idx2
    rw [e1, e2, hH]
  · have e : idx_main_v50 (idx_main_v51 (ix2 n j)) = ix1 j := by idx1
    rw [e]
    exact (shapeCast_a_1a_apply x6 shapeCasts_S64_S1x64 (0 : Fin 1) j).symm

/-- THE RESULT: the reference's result array is the kernel program's, for real features and aggregation weights. -/
theorem result_eq (hx : ∀ i, IsFin (x0 i)) (hw : ∀ i, IsFin (x2 i)) :
    val_main_v59 (F := Ideal) x0 x1 x2 x3 x4 x5 x6 x7 x8 x9 = kernelOut x0 x1 x2 x3 x4 x5 x6 x7 x8 x9 := by
  have hH := hidden1_eq x0 x1 x2 x3 x4 hx hw
  funext i
  obtain ⟨n, o, rfl⟩ : ∃ (n : Fin 100000) (o : Fin 112), i = ix2 n o := ⟨i 0, i 1, eq_ix2 i⟩
  unfold kernelOut
  rw [val_main_v59_apply, val_main_v56_apply, val_main_v58_apply, val_main_v57_apply, sage2_ix2]
  simp only [Ideal.addf_def]
  refine congrArg₂ (· + ·) (Finset.sum_congr rfl fun j _ => ?_) ?_
  · have e1 : lidx_main_v56 (ix2 n o) j = ix2 n j := by idx2
    have e2 : ridx_main_v56 (ix2 n o) j = ix2 j o := by idx2
    rw [e1, e2, hidden2_entry x0 x1 x2 x3 x4 x5 x6 x7 _ hH n j]
  · have e : idx_main_v57 (idx_main_v58 (ix2 n o)) = ix1 o := by idx1
    rw [e]
    exact (shapeCast_a_1a_apply x9 shapeCasts_S112_S1x112 (0 : Fin 1) o).symm

end Cert.SageBridge

end
-- ==== Proof.SagePre.lean ====
/-
  What the precondition says of the features and of the first aggregation weights.

  The precondition is a conjunction, one conjunct per float argument, each the reduction by `and` over the whole
  array of the comparison `|x| < +∞`.  The conjunction being one, the first two conjuncts are one; a reduction by
  `and` from one that ends at one met a one at every index; and an extended real whose absolute value is below `+∞`
  is neither infinity, that is, a real number.
-/
import proofs.«139927_j56255481643658_2_alg».proof.Pre_finite_inputs
import proofs.«139927_j56255481643658_2_alg».proof.Proof.LibGcnLayer
import Idealize.ShloMosaic.Lib.ReduceAll
import Idealize.ShloMosaic.PureOps.Ideal
import Idealize.ShloMosaic.PureOps.Ideal.Laws
import Idealize.ShloMosaic.Lib.ValueIdx

noncomputable section

namespace Cert.SagePre

open Idealize.ShloMosaic Idealize.ShloMosaic.ValueIdx Cert.GcnAlgebra Cert.Pre_finite_inputs

instance : Subsingleton S_.Idx := ⟨fun a b => funext fun d => d.elim0⟩

/-- The pattern the precondition compares against is `+∞`. -/
theorem ofBits_inf : Ideal.ofBits .f32 0x7F800000#32 = ⊤ := by simp [Ideal.ofBits, Ideal.ieee]

/-- An extended real whose absolute value compares below `+∞` is a real number. -/
theorem isFin_of_abs_lt_top (x : EReal) (h : Ideal.cmp .olt (max x (-x)) ⊤ = 1#1) : IsFin x := by
  have hlt : max x (-x) < ⊤ := by
    by_contra hn
    have h0 : Ideal.cmp .olt (max x (-x)) ⊤ = 0#1 := by
      unfold Ideal.cmp
      simp only [hn, decide_false]
      rfl
    rw [h0] at h
    exact absurd h (by decide)
  induction x using EReal.rec with
  | bot => exact absurd hlt (by simp)
  | coe r => exact ⟨r, rfl⟩
  | top => exact absurd hlt (by simp)

/-- Under the precondition every feature and every first aggregation weight is a real number. -/
theorem real_of_pre [Facts] (a0 : FVec Ideal S100000x128 .f32) (a1 : IVec S2x1600000 32) (a2 : FVec Ideal S128x64 .f32)
    (a3 : FVec Ideal S64 .f32) (a4 : FVec Ideal S128x64 .f32) (a5 : FVec Ideal S64x64 .f32) (a6 : FVec Ideal S64 .f32)
    (a7 : FVec Ideal S64x64 .f32) (a8 : FVec Ideal S64x112 .f32) (a9 : FVec Ideal S112 .f32)
    (h : fn (F := Ideal) a0 a1 a2 a3 a4 a5 a6 a7 a8 a9 = fun _ => 1#1) :
    (∀ i, IsFin (a0 i)) ∧ (∀ i, IsFin (a2 i)) := by
  have h0 := congrFun h ix0
  dsimp only [fn, fn_part1, fn_part2, andi] at h0
  obtain ⟨h1, -⟩ := IntOp.andi_eq_one.mp h0
  obtain ⟨h2, -⟩ := IntOp.andi_eq_one.mp h1
  obtain ⟨h3, -⟩ := IntOp.andi_eq_one.mp h2
  obtain ⟨h4, -⟩ := IntOp.andi_eq_one.mp h3
  obtain ⟨h5, -⟩ := IntOp.andi_eq_one.mp h4
  obtain ⟨h6, -⟩ := IntOp.andi_eq_one.mp h5
  obtain ⟨h7, -⟩ := IntOp.andi_eq_one.mp h6
  obtain ⟨hx, hw⟩ := IntOp.andi_eq_one.mp h7
  refine ⟨fun i => ?_, fun i => ?_⟩
  · have e := Host.reduce_andi_all _ _ _ _ ix0 hx i
    have e' : Ideal.cmp .olt (max (a0 i) (-(a0 i))) (Ideal.ofBits .f32 0x7F800000#32) = 1#1 := e
    rw [ofBits_inf] at e'
    exact isFin_of_abs_lt_top _ e'
  · have e := Host.reduce_andi_all _ _ _ _ ix0 hw i
    have e' : Ideal.cmp .olt (max (a2 i) (-(a2 i))) (Ideal.ofBits .f32 0x7F800000#32) = 1#1 := e
    rw [ofBits_inf] at e'
    exact isFin_of_abs_lt_top _ e'

end Cert.SagePre

end
-- ==== Proof.lean ====
/-
  Two layers of neighbourhood-mean graph convolution with a linear read-out, as three tiled kernels among host
  gathers and scatter-adds, against the plain array program.

  With `E n` the edges landing on node `n`, `s e` the source row of edge `e`, and `d n = max (|E n|, 1)`, the
  reference computes
    `h1 (n, j) = max (((Σ_k ((Σ_{e ∈ E n} x (s e, k)) / d n) · W1l (k, j)) + b1 j) + Σ_k x (n, k) · W1r (k, j), 0)`,
    `h2 (n, j) = max (((Σ_k ((Σ_{e ∈ E n} h1 (s e, k)) / d n) · W2l (k, j)) + b2 j) + Σ_k h1 (n, k) · W2r (k, j), 0)`,
    `out (n, o) = (Σ_j h2 (n, j) · Wo (j, o)) + bo o`.
  The kernel program projects the features through `W1l` BEFORE the first aggregation and multiplies by `1 / d n`
  where the reference divides by `d n`; in the second layer it adds the bias after the root term.  Over the extended
  reals a change of float format is the identity, `d n` is a real number that is at least one, and for real features
  and weights (the precondition) projecting commutes with averaging; so both programs end with the same array.

  The kernel program's run and each region's output array come from the generated frame (`SageRun`, `SageRegion0–2`,
  `SageFold`); the reference's run and its operations read at an index are generated modules; `SageBridge` joins
  the two functions and `SagePre` reads the precondition.
-/
import proofs.«139927_j56255481643658_2_alg».proof.Defs
import proofs.«139927_j56255481643658_2_alg».proof.Proof.Gen.Kernel
import proofs.«139927_j56255481643658_2_alg».proof.Proof.Gen.Kernel.Skeleton
import proofs.«139927_j56255481643658_2_alg».proof.Proof.Gen.Kernel.Launch
import proofs.«139927_j56255481643658_2_alg».proof.Proof.Gen.Kernel.Points
import proofs.«139927_j56255481643658_2_alg».proof.Proof.Gen.Kernel.Frame
import proofs.«139927_j56255481643658_2_alg».proof.Proof.Gen.KernelIdeal
import proofs.«139927_j56255481643658_2_alg».proof.Proof.Gen.KernelIdeal.Skeleton
import proofs.«139927_j56255481643658_2_alg».proof.Proof.Gen.KernelIdeal.Launch
import proofs.«139927_j56255481643658_2_alg».proof.Proof.Gen.KernelIdeal.Points
import proofs.«139927_j56255481643658_2_alg».proof.Proof.Gen.KernelIdeal.Frame
import proofs.«139927_j56255481643658_2_alg».proof.Proof.Gen.ReferenceIdeal
import proofs.«139927_j56255481643658_2_alg».proof.Proof.Gen.ReferenceIdeal.Run
import proofs.«139927_j56255481643658_2_alg».proof.Proof.Gen.ReferenceIdeal.Read
import proofs.«139927_j56255481643658_2_alg».proof.Proof.Gen.Pre_finite_inputs
import proofs.«139927_j56255481643658_2_alg».proof.Proof.SageRun
import proofs.«139927_j56255481643658_2_alg».proof.Proof.SageFold
import proofs.«139927_j56255481643658_2_alg».proof.Proof.SageBridge
import proofs.«139927_j56255481643658_2_alg».proof.Proof.SagePre
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result array: the kernel program's run names its result as one function
    of the arguments, the reference's run is read as its composed term, and the two functions agree where the features
    and the first aggregation weights are real numbers, which the precondition says. -/
theorem algebraic : Cert.algebraic_KernelIdeal_ReferenceIdeal := by
  intro m ρ m' ρ' hpre hagree
  refine ⟨fun c => Cert.KernelIdeal.SageFold.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.SageFold.W6_result m ρ c), (h c).2⟩)
      (Cert.KernelIdeal.SageRun.run_result (F := Ideal) m ρ)
  · refine (θ_run Cert.ReferenceIdeal.defs _ _).mono (fun r h c => ?_) (Cert.ReferenceIdeal.Value.run (F := Ideal) m' ρ')
    obtain ⟨hx, hw⟩ := Cert.SagePre.real_of_pre _ _ _ _ _ _ _ _ _ _ (hpre c)
    obtain ⟨g0, g1, g2, g3, g4, g5, g6, g7, g8, g9⟩ := hagree c
    refine ⟨(h c).1.trans ?_, (h c).2⟩
    rw [Cert.ReferenceIdeal.Read.val_main_v59_eq, g0, g1, g2, g3, g4, g5, g6, g7, g8, g9]
    exact Cert.SageBridge.result_eq _ _ _ _ _ _ _ _ _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
